-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x96x512x512 : Shape := ⟨4, ![2, 96, 512, 512]⟩
abbrev S2x512x512 : Shape := ⟨3, ![2, 512, 512]⟩
abbrev S2x1x512x512 : Shape := ⟨4, ![2, 1, 512, 512]⟩
abbrev S96 : Shape := ⟨1, ![96]⟩
abbrev S_ : Shape := ⟨0, ![]⟩

class Facts : Prop where
  bcast_S_S2x96x512x512 : S_.BroadcastsInDim S2x96x512x512 (![] : Fin 0 → Fin S2x96x512x512.rank)
  reducesTo_S2x96x512x512_S_d0_1_2_3 : S2x96x512x512.ReducesTo [0, 1, 2, 3] S_
  h_S_ : 0 < S_.numel
  bcast_S_S2x1x512x512 : S_.BroadcastsInDim S2x1x512x512 (![] : Fin 0 → Fin S2x1x512x512.rank)
  reducesTo_S2x1x512x512_S_d0_1_2_3 : S2x1x512x512.ReducesTo [0, 1, 2, 3] S_
  bcast_S_S96 : S_.BroadcastsInDim S96 (![] : Fin 0 → Fin S96.rank)
  reducesTo_S96_S_d0 : S96.ReducesTo [0] S_

variable [Facts]

def fn_part1 {F : FTy → Type} [FloatOps F] (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  main_v18

def fn {F : FTy → Type} [FloatOps F] (main_arg0 : FVec F S2x96x512x512 .f32) (main_arg1 : FVec F S2x96x512x512 .f32) (main_arg2 : IVec S2x512x512 1) (main_arg3 : FVec F S2x1x512x512 .f32) (main_arg4 : FVec F S96 .f32) : IVec S_ 1 :=
  let main_v0 : FVec F S2x96x512x512 .f32 := Host.absf main_arg0
  let main_cst : FVec F S_ .f32 := constant S_ .f32 0x7F800000#32
  let main_v1 : FVec F S2x96x512x512 .f32 := broadcastInDim S2x96x512x512 ![] bcast_S_S2x96x512x512 main_cst
  let main_v2 : IVec S2x96x512x512 1 := cmpf .olt main_v0 main_v1
  let main_c : IVec S_ 1 := constantI S_ 1 1#1
  let main_v3 : IVec S_ 1 := (fun x v => Host.reduce IntOp.andi x v reducesTo_S2x96x512x512_S_d0_1_2_3 h_S_) main_v2 main_c
  let main_v4 : FVec F S2x96x512x512 .f32 := Host.absf main_arg1
  let main_cst_0 : FVec F S_ .f32 := constant S_ .f32 0x7F800000#32
  let main_v5 : FVec F S2x96x512x512 .f32 := broadcastInDim S2x96x512x512 ![] bcast_S_S2x96x512x512 main_cst_0
  let main_v6 : IVec S2x96x512x512 1 := cmpf .olt main_v4 main_v5
  let main_c_1 : IVec S_ 1 := constantI S_ 1 1#1
  let main_v7 : IVec S_ 1 := (fun x v => Host.reduce IntOp.andi x v reducesTo_S2x96x512x512_S_d0_1_2_3 h_S_) main_v6 main_c_1
  let main_v8 : IVec S_ 1 := andi main_v3 main_v7
  let main_v9 : FVec F S2x1x512x512 .f32 := Host.absf main_arg3
  let main_cst_2 : FVec F S_ .f32 := constant S_ .f32 0x7F800000#32
  let main_v10 : FVec F S2x1x512x512 .f32 := broadcastInDim S2x1x512x512 ![] bcast_S_S2x1x512x512 main_cst_2
  let main_v11 : IVec S2x1x512x512 1 := cmpf .olt main_v9 main_v10
  let main_c_3 : IVec S_ 1 := constantI S_ 1 1#1
  let main_v12 : IVec S_ 1 := (fun x v => Host.reduce IntOp.andi x v reducesTo_S2x1x512x512_S_d0_1_2_3 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_v13 main_v16
-- ==== Kernel.lean ====
abbrev S2x96x512x512 : Shape := ⟨4, ![2, 96, 512, 512]⟩
abbrev S2x512x512 : Shape := ⟨3, ![2, 512, 512]⟩
abbrev S2x1x512x512 : Shape := ⟨4, ![2, 1, 512, 512]⟩
abbrev S96 : Shape := ⟨1, ![96]⟩
abbrev S_ : Shape := ⟨0, ![]⟩
abbrev S96x1x1 : Shape := ⟨3, ![96, 1, 1]⟩
abbrev S1x1 : Shape := ⟨2, ![1, 1]⟩
abbrev S1x96x32x512 : Shape := ⟨4, ![1, 96, 32, 512]⟩
abbrev S96x32x512 : Shape := ⟨3, ![96, 32, 512]⟩
abbrev S32x512 : Shape := ⟨2, ![32, 512]⟩
abbrev S1x32x512 : Shape := ⟨3, ![1, 32, 512]⟩
abbrev S1 : Shape := ⟨1, ![1]⟩
abbrev S1x1x1 : Shape := ⟨3, ![1, 1, 1]⟩

abbrev nBuf : Space → Nat
  | .hbm => 24
  | .vmem => 8
  | .smem => 0
  | _ => 0

abbrev bufTy : (tb : Table) → Fin (tcTables nBuf tb) → BufTy
  | .hbm, ⟨0, _⟩ => ⟨S2x96x512x512, .f32⟩
  | .hbm, ⟨1, _⟩ => ⟨S2x96x512x512, .f32⟩
  | .hbm, ⟨2, _⟩ => ⟨S2x512x512, .i1⟩
  | .hbm, ⟨3, _⟩ => ⟨S2x1x512x512, .f32⟩
  | .hbm, ⟨4, _⟩ => ⟨S96, .f32⟩
  | .hbm, ⟨5, _⟩ => ⟨S2x512x512, .f32⟩
  | .hbm, ⟨6, _⟩ => ⟨S_, .f32⟩
  | .hbm, ⟨7, _⟩ => ⟨S2x512x512, .f32⟩
  | .hbm, ⟨8, _⟩ => ⟨S2x512x512, .i1⟩
  | .hbm, ⟨9, _⟩ => ⟨S2x512x512, .i1⟩
  | .hbm, ⟨10, _⟩ => ⟨S2x512x512, .i1⟩
  | .hbm, ⟨11, _⟩ => ⟨S2x512x512, .f32⟩
  | .hbm, ⟨12, _⟩ => ⟨S96x1x1, .f32⟩
  | .hbm, ⟨13, _⟩ => ⟨S1x1, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .i1⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x96x32x512, .f32⟩
  | .local _ .vmem, ⟨1, _⟩ => ⟨S1x96x32x512, .f32⟩
  | .local _ .vmem, ⟨2, _⟩ => ⟨S1x96x32x512, .f32⟩
  | .local _ .vmem, ⟨3, _⟩ => ⟨S1x96x32x512, .f32⟩
  | .local _ .vmem, ⟨4, _⟩ => ⟨S2x512x512, .f32⟩
  | .local _ .vmem, ⟨5, _⟩ => ⟨S96x1x1, .f32⟩
  | .local _ .vmem, ⟨6, _⟩ => ⟨S1x1, .f32⟩
  | .local _ .vmem, ⟨7, _⟩ => ⟨S1x1, .f32⟩
  | _, _ => ⟨S2x96x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let v30 : Index := Scalar.indexCast arg0
  let arg1 : BitVec 32 := BitVec.ofNat 32 (i 1).val
  let c32_i32 : BitVec 32 := 32#32
  let v29 : BitVec 32 := Scalar.muli arg1 c32_i32
  let v31 : Index := Scalar.indexCast v29
  let c0_17 : Index := 0#32
  ![v30.toNat, v31.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x96x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S96x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  shapeCasts_S2x1x512x512_S2x512x512 : S2x1x512x512.ShapeCasts S2x512x512
  bcast_S_S2x512x512 : S_.BroadcastsInDim S2x512x512 (![] : Fin 0 → Fin S2x512x512.rank)
  shapeCasts_S96_S96x1x1 : S96.ShapeCasts S96x1x1
  inb_S1x1_S1x1_0_0 : ∀ a, (![0, 0] : Fin 2 → Nat) a + S1x1.size a ≤ S1x1.size a
  h_S1x1 : 0 < S1x1.numel
  inb_S1x96x32x512_S1x96x32x512_0_0_0_0 : ∀ a, (![0, 0, 0, 0] : Fin 4 → Nat) a + S1x96x32x512.size a ≤ S1x96x32x512.size a
  h_S1x96x32x512 : 0 < S1x96x32x512.numel
  shapeCasts_S1x96x32x512_S96x32x512 : S1x96x32x512.ShapeCasts S96x32x512
  inb_S96x1x1_S96x1x1_0_0_0 : ∀ a, (![0, 0, 0] : Fin 3 → Nat) a + S96x1x1.size a ≤ S96x1x1.size a
  h_S96x1x1 : 0 < S96x1x1.numel
  shapeCasts_S96x1x1_S96x1x1 : S96x1x1.ShapeCasts S96x1x1
  broadcasts_S96x1x1_S96x32x512 : S96x1x1.Broadcasts S96x32x512
  reduces_S96x32x512_S32x512 : S96x32x512.Reduces [0] S32x512
  h_S1x32x512 : 0 < S1x32x512.numel
  shapeCasts_S1x32x512_S32x512 : S1x32x512.ShapeCasts S32x512
  shapeCasts_S1x1_S1x1 : S1x1.ShapeCasts S1x1
  shapeCasts_S32x512_S1x32x512 : S32x512.ShapeCasts S1x32x512
  reduces_S1x32x512_S1 : S1x32x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  k0_off1_inb : ∀ i : grid0.Coords, ∀ a, (k0_off1 i) a + S1x32x512.size a ≤ S2x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x32x512.size a ≤ S2x96x512x512.size a
  hwx0_0 : ∀ i : grid0.Coords, EltTy.bits .f32 = 32 ∨ (Rect.block (s := S2x96x512x512) S1x96x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x32x512.size a ≤ S2x96x512x512.size a
  hwx0_1 : ∀ i : grid0.Coords, EltTy.bits .f32 = 32 ∨ (Rect.block (s := S2x96x512x512) S1x96x32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S2x512x512.size a
  hwx0_2 : ∀ i : grid0.Coords, EltTy.bits .f32 = 32 ∨ (Rect.block (s := S2x512x512) S2x512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x1x1.size a ≤ S96x1x1.size a
  hwx0_3 : ∀ i : grid0.Coords, EltTy.bits .f32 = 32 ∨ (Rect.block (s := S96x1x1) S96x1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S1x96x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x96x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2x512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S96x1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x96x512x512 : Shape := ⟨4, ![2, 96, 512, 512]⟩
abbrev S2x512x512 : Shape := ⟨3, ![2, 512, 512]⟩
abbrev S2x1x512x512 : Shape := ⟨4, ![2, 1, 512, 512]⟩
abbrev S96 : Shape := ⟨1, ![96]⟩
abbrev S_ : Shape := ⟨0, ![]⟩
abbrev S2x512x512x96 : Shape := ⟨4, ![2, 512, 512, 96]⟩
abbrev S1x1x1x96 : Shape := ⟨4, ![1, 1, 1, 96]⟩

abbrev nBuf : Space → Nat
  | .hbm => 51
  | .vmem => 0
  | .smem => 0
  | _ => 0

abbrev bufTy : (tb : Table) → Fin (tcTables nBuf tb) → BufTy
  | .hbm, ⟨0, _⟩ => ⟨S2x96x512x512, .f32⟩
  | .hbm, ⟨1, _⟩ => ⟨S2x96x512x512, .f32⟩
  | .hbm, ⟨2, _⟩ => ⟨S2x512x512, .i1⟩
  | .hbm, ⟨3, _⟩ => ⟨S2x1x512x512, .f32⟩
  | .hbm, ⟨4, _⟩ => ⟨S96, .f32⟩
  | .hbm, ⟨5, _⟩ => ⟨S2x512x512, .f32⟩
  | .hbm, ⟨6, _⟩ => ⟨S_, .f32⟩
  | .hbm, ⟨7, _⟩ => ⟨S2x512x512, .f32⟩
  | .hbm, ⟨8, _⟩ => ⟨S2x512x512, .i1⟩
  | .hbm, ⟨9, _⟩ => ⟨S2x512x512, .i1⟩
  | .hbm, ⟨10, _⟩ => ⟨S2x512x512, .i1⟩
  | .hbm, ⟨11, _⟩ => ⟨S2x512x512x96, .f32⟩
  | .hbm, ⟨12, _⟩ => ⟨S2x512x512x96, .f32⟩
  | .hbm, ⟨13, _⟩ => ⟨S1x1x1x96, .f32⟩
  | .hbm, ⟨14, _⟩ => ⟨S2x512x512x96, .f32⟩
  | .hbm, ⟨15, _⟩ => ⟨S2x512x512x96, .f32⟩
  | .hbm, ⟨16, _⟩ => ⟨S2x512x512x96, .f32⟩
  | .hbm, ⟨17, _⟩ => ⟨S_, .f32⟩
  | .hbm, ⟨18, _⟩ => ⟨S2x512x512, .f32⟩
  | .hbm, ⟨19, _⟩ => ⟨S2x512x512x96, .f32⟩
  | .hbm, ⟨20, _⟩ => ⟨S_, .f32⟩
  | .hbm, ⟨21, _⟩ => ⟨S2x512x512, .f32⟩
  | .hbm, ⟨22, _⟩ => ⟨S2x512x512, .f32⟩
  | .hbm, ⟨23, _⟩ => ⟨S2x512x512x96, .f32⟩
  | .hbm, ⟨24, _⟩ => ⟨S_, .f32⟩
  | .hbm, ⟨25, _⟩ => ⟨S2x512x512, .f32⟩
  | .hbm, ⟨26, _⟩ => ⟨S2x512x512, .f32⟩
  | .hbm, ⟨27, _⟩ => ⟨S_, .f32⟩
  | .hbm, ⟨28, _⟩ => ⟨S2x512x512, .f32⟩
  | .hbm, ⟨29, _⟩ => ⟨S2x512x512, .f32⟩
  | .hbm, ⟨30, _⟩ => ⟨S_, .f32⟩
  | .hbm, ⟨31, _⟩ => ⟨S2x512x512, .f32⟩
  | .hbm, ⟨32, _⟩ => ⟨S2x512x512, .f32⟩
  | .hbm, ⟨33, _⟩ => ⟨S2x512x512, .f32⟩
  | .hbm, ⟨34, _⟩ => ⟨S2x512x512, .f32⟩
  | .hbm, ⟨35, _⟩ => ⟨S_, .f32⟩
  | .hbm, ⟨36, _⟩ => ⟨S2x512x512, .f32⟩
  | .hbm, ⟨37, _⟩ => ⟨S2x512x512, .f32⟩
  | .hbm, ⟨38, _⟩ => ⟨S2x512x512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .i1⟩
  | .hbm, ⟨43, _⟩ => ⟨S2x512x512, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S2x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  shapeCasts_S2x1x512x512_S2x512x512 : S2x1x512x512.ShapeCasts S2x512x512
  bcast_S_S2x512x512 : S_.BroadcastsInDim S2x512x512 (![] : Fin 0 → Fin S2x512x512.rank)
  transposes_S2x96x512x512_S2x512x512x96_0_2_3_1 : S2x96x512x512.Transposes [0, 2, 3, 1] S2x512x512x96
  bcast_S96_S1x1x1x96_3 : S96.BroadcastsInDim S1x1x1x96 (![3] : Fin 1 → Fin S1x1x1x96.rank)
  bcast_S1x1x1x96_S2x512x512x96_0_1_2_3 : S1x1x1x96.BroadcastsInDim S2x512x512x96 (![0, 1, 2, 3] : Fin 4 → Fin S2x512x512x96.rank)
  reducesTo_S2x512x512x96_S2x512x512_d3 : S2x512x512x96.ReducesTo [3] S2x512x512
  h_S_ : 0 < S_.numel
  reducesTo_S2x512x512_S_d0_1_2 : S2x512x512.ReducesTo [0, 1, 2] S_

variable [Facts₀]

class Facts : Prop extends Facts₀ where

variable [Facts]
-- ==== Proof.KernelCases.lean ====
/-
  What one grid point leaves in the two accumulators.

  At a grid point the body forms, from its block of the student's and the teacher's feature maps and from the centre,
  the loss of each of the block's 32 x 512 pixels, and reads the same 32 rows of the valid array. It then adds to
  the first accumulator the sum over the block of loss times valid, and to the second the sum of valid. At the first
  point it first stores zero in both accumulators and reads that zero back; at every other point it adds onto what
  the point before left. Each accumulator is a single cell, written through one store that covers it, so what the
  point leaves is that store's value.
-/
import proofs.«115911_g66623532696115_cont_9to1c4b_22_17_alg».proof.Defs
import proofs.«115911_g66623532696115_cont_9to1c4b_22_17_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The 32 rows of the valid array that a grid point reads: rows 32 q .. 32 q + 31 of image b at the point (b, q). -/
def validRows (i : grid0.Coords) (x2 : Vec F S2x512x512 .f32) : Vec F S1x32x512 .f32 :=
  View.ld x2 (Rect.unit (s := S2x512x512) (k0_off1 i) S1x32x512.size (k0_off1_inb i))

/-- The loss accumulator after a point that found `acc` in it: `acc` plus the block's sum of loss times valid. -/
def lossStep (i : grid0.Coords) (x0 : Vec F S1x96x32x512 .f32) (x1 : Vec F S1x96x32x512 .f32) (x2 : Vec F S2x512x512 .f32) (x3 : Vec F S96x1x1 .f32) (acc : Vec F S1x1 .f32) : Vec F S1x1 .f32 :=
  k0_pay1 (k0_pay5 x0 x1 x3) (k0_pay6 (validRows i x2)) acc

/-- The count accumulator after a point that found `acc` in it: `acc` plus the block's sum of valid. -/
def countStep (i : grid0.Coords) (x2 : Vec F S2x512x512 .f32) (acc : Vec F S1x1 .f32) : Vec F S1x1 .f32 :=
  k0_pay2 (k0_pay6 (validRows i x2)) acc

/-- A later point adds its block's sum onto the loss accumulator it found. -/
theorem out_B_4 (c : Dev nD) (i : grid0.Coords) (arg2 : Memref sig .tc .vmem S1x96x32x512 .f32) (harg2 : arg2.IsWhole) (arg3 : Memref sig .tc .vmem S1x96x32x512 .f32) (harg3 : arg3.IsWhole) (arg4 : Memref sig .tc .vmem S2x512x512 .f32) (harg4 : arg4.IsWhole) (arg5 : Memref sig .tc .vmem S96x1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S1x96x32x512 .f32) (x1 : Vec F S1x96x32x512 .f32) (x2 : Vec F S2x512x512 .f32) (x3 : Vec F S96x1x1 .f32) (xo4 : Vec F S1x1 .f32) (xo5 : Vec F S1x1 .f32) :
    out0_B_4 c i arg2 harg2 arg3 harg3 arg4 harg4 arg5 harg5 arg6 harg6 arg7 harg7 hc0 x0 x1 x2 x3 xo4 xo5 = lossStep i x0 x1 x2 x3 xo4 := by
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  sl_unfold_words
  rw [View.canon_unit_zero hz2]
  simp only [View.readAt_eq_ld, harg2.read_unread, harg3.read_unread, harg4.read_unread, harg5.read_unread, harg6.read_unread, harg7.read_unread,
    View.ld_unit_zero (S := S1x96x32x512) hz4, View.ld_unit_zero (S := S96x1x1) hz3, View.ld_unit_zero (S := S1x1) hz2]
  rfl

/-- A later point adds its block's count onto the count accumulator it found. -/
theorem out_B_5 (c : Dev nD) (i : grid0.Coords) (arg2 : Memref sig .tc .vmem S1x96x32x512 .f32) (harg2 : arg2.IsWhole) (arg3 : Memref sig .tc .vmem S1x96x32x512 .f32) (harg3 : arg3.IsWhole) (arg4 : Memref sig .tc .vmem S2x512x512 .f32) (harg4 : arg4.IsWhole) (arg5 : Memref sig .tc .vmem S96x1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S1x96x32x512 .f32) (x1 : Vec F S1x96x32x512 .f32) (x2 : Vec F S2x512x512 .f32) (x3 : Vec F S96x1x1 .f32) (xo4 : Vec F S1x1 .f32) (xo5 : Vec F S1x1 .f32) :
    out0_B_5 c i arg2 harg2 arg3 harg3 arg4 harg4 arg5 harg5 arg6 harg6 arg7 harg7 hc0 x0 x1 x2 x3 xo4 xo5 = countStep i x2 xo5 := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  sl_unfold_words
  rw [View.canon_unit_zero hz2]
  simp only [View.readAt_eq_ld, harg2.read_unread, harg3.read_unread, harg4.read_unread, harg5.read_unread, harg6.read_unread, harg7.read_unread,
    View.ld_unit_zero (S := S1x96x32x512) hz4, View.ld_unit_zero (S := S96x1x1) hz3, View.ld_unit_zero (S := S1x1) hz2]
  rfl

/-- The first point adds its block's sum onto the zero it has just stored. -/
theorem out_A_4 (c : Dev nD) (i : grid0.Coords) (arg2 : Memref sig .tc .vmem S1x96x32x512 .f32) (harg2 : arg2.IsWhole) (arg3 : Memref sig .tc .vmem S1x96x32x512 .f32) (harg3 : arg3.IsWhole) (arg4 : Memref sig .tc .vmem S2x512x512 .f32) (harg4 : arg4.IsWhole) (arg5 : Memref sig .tc .vmem S96x1x1 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S1x96x32x512 .f32) (x1 : Vec F S1x96x32x512 .f32) (x2 : Vec F S2x512x512 .f32) (x3 : Vec F S96x1x1 .f32) :
    out0_A_4 c i arg2 harg2 arg3 harg3 arg4 harg4 arg5 harg5 arg6 harg6 arg7 harg7 hc0 x0 x1 x2 x3 = lossStep i x0 x1 x2 x3 (k0_pay3 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread,
    View.ld_unit_zero (S := S1x96x32x512) hz4, View.ld_unit_zero (S := S96x1x1) hz3, View.ld_unit_zero (S := S1x1) hz2]
  rfl

/-- The first point adds its block's count onto the zero it has just stored. -/
theorem out_A_5 (c : Dev nD) (i : grid0.Coords) (arg2 : Memref sig .tc .vmem S1x96x32x512 .f32) (harg2 : arg2.IsWhole) (arg3 : Memref sig .tc .vmem S1x96x32x512 .f32) (harg3 : arg3.IsWhole) (arg4 : Memref sig .tc .vmem S2x512x512 .f32) (harg4 : arg4.IsWhole) (arg5 : Memref sig .tc .vmem S96x1x1 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S1x96x32x512 .f32) (x1 : Vec F S1x96x32x512 .f32) (x2 : Vec F S2x512x512 .f32) (x3 : Vec F S96x1x1 .f32) :
    out0_A_5 c i arg2 harg2 arg3 harg3 arg4 harg4 arg5 harg5 arg6 harg6 arg7 harg7 hc0 x0 x1 x2 x3 = countStep i x2 (k0_pay4 (F := F)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread,
    View.ld_unit_zero (S := S1x96x32x512) hz4, View.ld_unit_zero (S := S96x1x1) hz3, View.ld_unit_zero (S := S1x1) hz2]
  rfl

end Cert.KernelIdeal.Acc

end
-- ==== Proof.LibIdx3Sum.lean ====
/-
  A sum over the indices of a three-axis array is the triple sum over its coordinates.

  The index set of an array [n0, n1, n2] is in bijection with Fin n0 x Fin n1 x Fin n2, each index being the triple
  of its coordinates; re-indexing a finite sum through a bijection does not change it, and a sum over a product is
  the iterated sum.  Holds in any commutative additive monoid.
-/
import Idealize.ShloMosaic.Lib.ValueIdx

namespace Cert.Lib.Idx3Sum

open Idealize.ShloMosaic Idealize.ShloMosaic.ValueIdx

/-- An index of a three-axis array is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a three-axis array, in any commutative additive monoid, is the iterated sum over the
    three coordinates of the summand at the index with those coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.Idx3Sum
-- ==== Proof.PixelLoss.lean ====
/-
  The masked mean of a per-pixel cosine loss, as functions over the extended reals.

  A feature map [2, 96, 512, 512] carries, at each pixel (b, h, w), a channel vector of 96 entries. The loss of a
  pixel is one minus the cosine between the student's channel vector s and the teacher's centred channel vector
  t = T - C: the inner product of s and t over the product of their norms, each norm floored at a small positive
  number. A pixel counts when its entry of x is non-zero and its mask bit is clear; the counted pixels' losses are
  averaged, and with no counted pixel the answer is zero.

  The sum over all 2 x 512 x 512 pixels can be taken in 32 consecutive blocks of 32 rows (16 blocks per image): block
  t = 16 b + q holds the rows 32 q .. 32 q + 31 of image b. Every pixel lies in exactly one block, so in a commutative
  monoid the sum of the block sums is the whole sum.
-/
import Idealize.ShloMosaic.PureOps.Ideal
import Idealize.ShloMosaic.Lib.ValueIdx
import proofs.«115911_g66623532696115_cont_9to1c4b_22_17_alg».proof.Proof.LibIdx3Sum

noncomputable section

open scoped BigOperators

namespace Cert.PixelLoss

open Idealize.ShloMosaic Idealize.ShloMosaic.ValueIdx

/-- The feature maps' shape, the pixels' shape, the shape of x, of the centre, and of a scalar. -/
abbrev SFeat : Shape := ⟨4, ![2, 96, 512, 512]⟩
abbrev SPix : Shape := ⟨3, ![2, 512, 512]⟩
abbrev SX : Shape := ⟨4, ![2, 1, 512, 512]⟩
abbrev SCh : Shape := ⟨1, ![96]⟩
abbrev S0 : Shape := ⟨0, ![]⟩

/-- The floor under each norm and the number one, each the value of its f32 word. -/
abbrev floorW : EReal := Ideal.ofBits .f32 0x322BCC77#32
abbrev oneW : EReal := Ideal.ofBits .f32 0x3F800000#32

/-- One minus the cosine of two channel vectors, the norms floored. -/
def cosLoss (s t : Fin 96 → EReal) : EReal :=
  oneW - Ideal.div (∑ d, s d * t d)
    (max (Ideal.sqrt (∑ d, s d * s d)) floorW * max (Ideal.sqrt (∑ d, t d * t d)) floorW)

/-- The loss of pixel (b, h, w): the student's channel vector against the teacher's minus the centre. -/
def lossAt (S T : SFeat.Idx → EReal) (C : SCh.Idx → EReal) (b : Fin 2) (h w : Fin 512) : EReal :=
  cosLoss (fun d => S (ix4 b d h w)) (fun d => T (ix4 b d h w) - C (ix1 d))

/-- The loss of every pixel. -/
def lossArr (S T : SFeat.Idx → EReal) (C : SCh.Idx → EReal) : SPix.Idx → EReal :=
  fun i => lossAt S T C (i 0) (i 1) (i 2)

/-- Which pixels count, as 0 or 1: x non-zero there and the mask bit clear. -/
def validArr (hc : SX.ShapeCasts SPix) (hb : S0.BroadcastsInDim SPix (![] : Fin 0 → Fin SPix.rank))
    (mask : IVec SPix 1) (x : FVec Ideal SX .f32) : FVec Ideal SPix .f32 :=
  uitofp .f32 (andi (cmpf .une (shapeCast SPix x hc)
    (broadcastInDim SPix ![] hb (constant (F := Ideal) S0 .f32 0x00000000#32))) (noti mask))

/-- The mean from the two totals: total loss over the count floored at one, and zero when nothing counted. -/
def tail (s c : FVec Ideal S0 .f32) : FVec Ideal S0 .f32 :=
  select (cmpf .ogt c (constant (F := Ideal) S0 .f32 0x00000000#32))
    (Host.divf s (maximumf c (constant (F := Ideal) S0 .f32 0x3F800000#32)))
    (constant (F := Ideal) S0 .f32 0x00000000#32)

/-- The masked mean loss. -/
def maskedMean (L V : SPix.Idx → EReal) : FVec Ideal S0 .f32 :=
  tail (fun _ => ∑ i, L i * V i) (fun _ => ∑ i, V i)

/-! ## The sum in blocks of rows -/

/-- The pixel at row r, column w of block t: image t / 16, row 32 (t mod 16) + r. -/
def blockPix (t : Fin 32) (r : Fin 32) (w : Fin 512) : SPix.Idx :=
  ix3 (⟨t.val / 16, by have := t.isLt; omega⟩ : Fin 2)
    (⟨32 * (t.val % 16) + r.val, by have := t.isLt; have := r.isLt; omega⟩ : Fin 512) w

/-- (block, row in the block) and (image, row of the image) name the same rows. -/
def rowEquiv : Fin 32 × Fin 32 ≃ Fin 2 × Fin 512 where
  toFun p := (⟨p.1.val / 16, by have := p.1.isLt; omega⟩,
    ⟨32 * (p.1.val % 16) + p.2.val, by have := p.1.isLt; have := p.2.isLt; omega⟩)
  invFun q := (⟨16 * q.1.val + q.2.val / 32, by have := q.1.isLt; have := q.2.isLt; omega⟩,
    ⟨q.2.val % 32, Nat.mod_lt _ (by decide)⟩)
  left_inv p := by
    obtain ⟨⟨t, ht⟩, ⟨r, hr⟩⟩ := p
    refine Prod.ext (Fin.ext ?_) (Fin.ext ?_)
    · show 16 * (t / 16) + (32 * (t % 16) + r) / 32 = t
      omega
    · show (32 * (t % 16) + r) % 32 = r
      omega
  right_inv q := by
    obtain ⟨⟨b, hb⟩, ⟨h, hh⟩⟩ := q
    refine Prod.ext (Fin.ext ?_) (Fin.ext ?_)
    · show (16 * b + h / 32) / 16 = b
      omega
    · show 32 * ((16 * b + h / 32) % 16) + h % 32 = h
      omega

/-- The sum of the 32 block sums is the sum over all pixels. -/
theorem sum_blocks {M : Type*} [AddCommMonoid M] (f : SPix.Idx → M) :
    ∑ t : Fin 32, ∑ r : Fin 32, ∑ w : Fin 512, f (blockPix t r w) = ∑ i, f i := by
  have h1 : ∑ t : Fin 32, ∑ r : Fin 32, ∑ w : Fin 512, f (blockPix t r w)
      = ∑ p : Fin 32 × Fin 32, ∑ w : Fin 512, f (blockPix p.1 p.2 w) :=
    (Fintype.sum_prod_type' (fun t r => ∑ w : Fin 512, f (blockPix t r w))).symm
  have h2 : ∑ a : Fin 2, ∑ b : Fin 512, ∑ c : Fin 512, f (ix3 a b c)
      = ∑ q : Fin 2 × Fin 512, ∑ c : Fin 512, f (ix3 q.1 q.2 c) :=
    (Fintype.sum_prod_type' (fun a b => ∑ c : Fin 512, f (ix3 a b c))).symm
  rw [Cert.Lib.Idx3Sum.sum_idx3 f, h1, h2]
  exact Fintype.sum_equiv rowEquiv _ _ (fun _ => rfl)

end Cert.PixelLoss

end
-- ==== Proof.KernelPayload.lean ====
/-
  The body's arithmetic read at the extended reals, entry by entry.

  At row r, column w of a block the loss is the cosine loss of two channel vectors: the student's block at
  (0, d, r, w), and the teacher's block at (0, d, r, w) minus the centre at d, d running over the 96 channels. Each
  of the three sums over channels is a lane reduction along the first axis of a [96, 32, 512] array from zero, which
  over the extended reals is the plain sum of its 96 terms. An accumulator step adds to the single cell it carries
  the total of a [32, 512] array, taken by reshaping it to [1, 32, 512] and reducing both trailing axes into one
  cell: the sum of all its entries, which is the double sum over rows and columns.
-/
import proofs.«115911_g66623532696115_cont_9to1c4b_22_17_alg».proof.Proof.KernelCases
import proofs.«115911_g66623532696115_cont_9to1c4b_22_17_alg».proof.Proof.PixelLoss
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Acc

open Cert.KernelIdeal Cert.KernelIdeal.Gen

/-! ## The operations that are not entry by entry -/

/-- A lane sum along the channel axis from zero, read at (r, w): the sum over the 96 channels. -/
theorem channelSum_apply (src : FVec Ideal S96x32x512 .f32) (hφ : FTy.f32 = FTy.f32 ∨ FTy.f32 = FTy.bf16)
    (hacc : (0x00000000#32 : BitVec 32) = 0x00000000#32) (r : Fin 32) (w : Fin 512) :
    multiReduction .add [0] S32x512 src 0x00000000#32 reduces_S96x32x512_S32x512 hφ hacc (ix2 r w)
      = ∑ d : Fin 96, src (ix3 d r w) :=
  (Ideal.multiReduction_add_single src 0x00000000#32 reduces_S96x32x512_S32x512 hφ hacc (ix2 r w)).trans
    (Finset.sum_congr rfl fun d _ => congrArg src (funext fun a => Fin.ext (by
      match a with | ⟨0, _⟩ => rfl | ⟨1, _⟩ => rfl | ⟨2, _⟩ => rfl)))

/-- A reduction of both trailing axes of a [1, 32, 512] array into one cell from zero: the sum of every entry. -/
theorem blockSum_apply (src : FVec Ideal S1x32x512 .f32) (hφ : FTy.f32 = FTy.f32 ∨ FTy.f32 = FTy.bf16)
    (hacc : (0x00000000#32 : BitVec 32) = 0x00000000#32) (j : S1.Idx) :
    multiReduction .add [1, 2] S1 src 0x00000000#32 reduces_S1x32x512_S1 hφ hacc j = ∑ i : S1x32x512.Idx, src i :=
  Ideal.multiReduction_add_total src 0x00000000#32 reduces_S1x32x512_S1
    (fun b => by match b with | ⟨0, _⟩ => rfl) hφ hacc j

/-- The entries of a [32, 512] array reshaped to [1, 32, 512] sum to the double sum over its rows and columns. -/
theorem total_apply (v : FVec Ideal S32x512 .f32) :
    ∑ i : S1x32x512.Idx, shapeCast S1x32x512 v shapeCasts_S32x512_S1x32x512 i
      = ∑ r : Fin 32, ∑ w : Fin 512, v (ix2 r w) := by
  rw [Cert.Lib.Idx3Sum.sum_idx3, Fin.sum_univ_one]
  exact Finset.sum_congr rfl fun r _ => Finset.sum_congr rfl fun w _ => shapeCast_ab_1ab_apply v _ 0 r w

/-- The one cell of a [1] array, reshaped to [1, 1, 1] and taken out at (0, 0, 0). -/
theorem extract_apply (v : FVec Ideal S1 .f32) :
    extractAt ![0, 0, 0] (shapeCast S1x1x1 v shapeCasts_S1_S1x1x1) inpos_S1x1x1_p0_0_0 = v (ix1 (0 : Fin 1)) :=
  shapeCast_apply v shapeCasts_S1_S1x1x1 _ (ix1 (0 : Fin 1)) (by
    rw [Shape.rowMajor_val_one, Shape.rowMajor_val_three]; rfl)

theorem sqrt_apply {s : Shape} (x : FVec Ideal s .f32) (i : s.Idx) : sqrt x i = Ideal.sqrt (x i) := rfl

/-- A feature block without its leading unit axis reads the block at (0, d, r, w). -/
theorem featBlock_apply (v : Vec Ideal S1x96x32x512 .f32) (d : Fin 96) (r : Fin 32) (w : Fin 512) :
    shapeCast S96x32x512 v shapeCasts_S1x96x32x512_S96x32x512 (ix3 d r w) = v (ix4 (0 : Fin 1) d r w) :=
  shapeCast_1abc_abc_apply v _ d r w

/-- The centre spread over rows and columns reads the centre at channel d. -/
theorem centre_apply (v : Vec Ideal S96x1x1 .f32) (d : Fin 96) (r : Fin 32) (w : Fin 512) :
    broadcastTo S96x32x512 (shapeCast S96x1x1 v shapeCasts_S96x1x1_S96x1x1) broadcasts_S96x1x1_S96x32x512 (ix3 d r w)
      = v (ix3 d (0 : Fin 1) (0 : Fin 1)) := by
  rw [shapeCast_self]
  exact broadcastTo_apply v _ _ _ (fun a => by
    match a with
    | ⟨0, _⟩ => rfl
    | ⟨1, _⟩ => rfl
    | ⟨2, _⟩ => rfl)

/-! ## The loss block and the valid block -/

/-- The loss block at (r, w) is the cosine loss of the pixel's two channel vectors. -/
theorem lossBlock_apply (v5 v7 : Vec Ideal S1x96x32x512 .f32) (v9 : Vec Ideal S96x1x1 .f32) (r : Fin 32) (w : Fin 512) :
    k0_pay5 (F := Ideal) v5 v7 v9 (ix2 r w)
      = Cert.PixelLoss.cosLoss (fun d => v5 (ix4 (0 : Fin 1) d r w))
          (fun d => v7 (ix4 (0 : Fin 1) d r w) - v9 (ix3 d (0 : Fin 1) (0 : Fin 1))) := by
  unfold k0_pay5 Cert.PixelLoss.cosLoss
  simp only [subf_apply, divf_apply, maximumf_apply, mulf_apply, broadcast_apply, sqrt_apply, Ideal.ofBits_def]
  refine congrArg₂ (fun a b => Ideal.ofBits .f32 0x3F800000#32 - Ideal.div a b) ?_
    (congrArg₂ (fun a b => max (Ideal.sqrt a) (Ideal.ofBits .f32 0x322BCC77#32)
      * max (Ideal.sqrt b) (Ideal.ofBits .f32 0x322BCC77#32)) ?_ ?_)
  · exact (channelSum_apply _ _ _ r w).trans (Finset.sum_congr rfl fun d _ =>
      congrArg₂ (· * ·) (featBlock_apply v5 d r w)
        (congrArg₂ (· - ·) (featBlock_apply v7 d r w) (centre_apply v9 d r w)))
  · exact (channelSum_apply _ _ _ r w).trans (Finset.sum_congr rfl fun d _ =>
      congrArg₂ (· * ·) (featBlock_apply v5 d r w) (featBlock_apply v5 d r w))
  · exact (channelSum_apply _ _ _ r w).trans (Finset.sum_congr rfl fun d _ =>
      congrArg₂ (· * ·) (congrArg₂ (· - ·) (featBlock_apply v7 d r w) (centre_apply v9 d r w))
        (congrArg₂ (· - ·) (featBlock_apply v7 d r w) (centre_apply v9 d r w)))

/-- The valid block at (r, w) is the 32 rows read, at (0, r, w). -/
theorem validBlock_apply (v32 : Vec Ideal S1x32x512 .f32) (r : Fin 32) (w : Fin 512) :
    k0_pay6 (F := Ideal) v32 (ix2 r w) = v32 (ix3 (0 : Fin 1) r w) :=
  shapeCast_1ab_ab_apply v32 _ r w

/-! ## The two accumulator updates -/

/-- The first accumulator's update: what it carried plus the block's total of loss times valid. -/
theorem lossUpdate_apply (v28 v33 : FVec Ideal S32x512 .f32) (v34 : Vec Ideal S1x1 .f32) (j : S1x1.Idx) :
    k0_pay1 (F := Ideal) v28 v33 v34 j = v34 j + ∑ r : Fin 32, ∑ w : Fin 512, v28 (ix2 r w) * v33 (ix2 r w) := by
  unfold k0_pay1
  simp only [addf_apply, broadcast_apply, shapeCast_self]
  refine congrArg (v34 j + ·) ?_
  refine (extract_apply _).trans ?_
  refine (blockSum_apply _ _ _ _).trans ?_
  exact total_apply (mulf v28 v33)

/-- The second accumulator's update: what it carried plus the block's total of valid. -/
theorem countUpdate_apply (v33 : FVec Ideal S32x512 .f32) (v44 : Vec Ideal S1x1 .f32) (j : S1x1.Idx) :
    k0_pay2 (F := Ideal) v33 v44 j = v44 j + ∑ r : Fin 32, ∑ w : Fin 512, v33 (ix2 r w) := by
  unfold k0_pay2
  simp only [addf_apply, broadcast_apply, shapeCast_self]
  refine congrArg (v44 j + ·) ?_
  refine (extract_apply _).trans ?_
  refine (blockSum_apply _ _ _ _).trans ?_
  exact total_apply v33

/-- The zero both accumulators start from. -/
theorem zeroLoss_apply (j : S1x1.Idx) : k0_pay3 (F := Ideal) j = 0 := Ideal.ofBits_zero_f32
theorem zeroCount_apply (j : S1x1.Idx) : k0_pay4 (F := Ideal) j = 0 := Ideal.ofBits_zero_f32

/-! ## One point's step, from its blocks -/

/-- A point adds to the loss accumulator, over its 32 rows and 512 columns, the pixel's cosine loss times valid. -/
theorem lossStep_apply (i : grid0.Coords) (x0 x1 : Vec Ideal S1x96x32x512 .f32) (x2 : Vec Ideal S2x512x512 .f32)
    (x3 : Vec Ideal S96x1x1 .f32) (acc : Vec Ideal S1x1 .f32) (j : S1x1.Idx) :
    lossStep (F := Ideal) i x0 x1 x2 x3 acc j = acc j + ∑ r : Fin 32, ∑ w : Fin 512,
      Cert.PixelLoss.cosLoss (fun d => x0 (ix4 (0 : Fin 1) d r w))
          (fun d => x1 (ix4 (0 : Fin 1) d r w) - x3 (ix3 d (0 : Fin 1) (0 : Fin 1)))
        * validRows (F := Ideal) i x2 (ix3 (0 : Fin 1) r w) := by
  unfold lossStep
  rw [lossUpdate_apply]
  exact congrArg (acc j + ·) (Finset.sum_congr rfl fun r _ => Finset.sum_congr rfl fun w _ =>
    congrArg₂ (· * ·) (lossBlock_apply x0 x1 x3 r w) (validBlock_apply _ r w))

/-- A point adds to the count accumulator the valid entries of its 32 rows and 512 columns. -/
theorem countStep_apply (i : grid0.Coords) (x2 : Vec Ideal S2x512x512 .f32) (acc : Vec Ideal S1x1 .f32) (j : S1x1.Idx) :
    countStep (F := Ideal) i x2 acc j = acc j + ∑ r : Fin 32, ∑ w : Fin 512,
      validRows (F := Ideal) i x2 (ix3 (0 : Fin 1) r w) := by
  unfold countStep
  rw [countUpdate_apply]
  exact congrArg (acc j + ·) (Finset.sum_congr rfl fun r _ => Finset.sum_congr rfl fun w _ => validBlock_apply _ r w)

end Cert.KernelIdeal.Acc

end
-- ==== Proof.KernelEntry.lean ====
/-
  What the region finds in the two arrays the program computes before it.

  Before the region the program forms, from the mask and from x, the array that is 1 at the pixels that count and 0
  elsewhere, and reshapes the centre from [96] to [96, 1, 1]. The region's third and fourth windows read those two
  arrays; the feature maps it reads are the arguments themselves.
-/
import proofs.«115911_g66623532696115_cont_9to1c4b_22_17_alg».proof.Defs
import proofs.«115911_g66623532696115_cont_9to1c4b_22_17_alg».proof.Proof.Gen.KernelIdeal.Frame
import proofs.«115911_g66623532696115_cont_9to1c4b_22_17_alg».proof.Proof.PixelLoss
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The array of counted pixels, as the region finds it. -/
theorem entry_valid (c : Dev nD) :
    (V m c main_v5 : S2x512x512.Idx → EReal)
      = Cert.PixelLoss.validArr shapeCasts_S2x1x512x512_S2x512x512 bcast_S_S2x512x512
          (m ((c : Thread nD τ).loc main_arg2)) (m ((c : Thread nD τ).loc main_arg3)) := by
  show StableHlo.after hostOps0 (fun b => m (c, b)) (Proc.devRef .tc main_v5) = _
  after_results
  rfl

/-- The centre with two unit axes added, as the region finds it. -/
theorem entry_centre (c : Dev nD) :
    (V m c main_v6 : S96x1x1.Idx → EReal)
      = shapeCast S96x1x1 (m ((c : Thread nD τ).loc main_arg4)) shapeCasts_S96_S96x1x1 := by
  show StableHlo.after hostOps0 (fun b => m (c, b)) (Proc.devRef .tc main_v6) = _
  after_results
  rfl

end Cert.KernelIdeal.Acc

end
-- ==== Proof.KernelBlocks.lean ====
/-
  The blocks a grid point reads, at coordinates.

  The grid has 32 points; point t works on image t / 16 and on the rows 32 (t mod 16) .. 32 (t mod 16) + 31 of it.
  Its block of a feature map is [1, 96, 32, 512]: entry (0, d, r, w) of the block is entry (t / 16, d, 32 (t mod 16) + r, w)
  of the map. The array of counted pixels and the centre are read whole at every point, and the body itself takes from
  the first the 32 rows of its block. So the terms a point adds are the per-pixel loss and the counted-pixel flag at
  the pixels of block t.
-/
import proofs.«115911_g66623532696115_cont_9to1c4b_22_17_alg».proof.Proof.KernelPayload
import proofs.«115911_g66623532696115_cont_9to1c4b_22_17_alg».proof.Proof.KernelEntry

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- A grid point as a number below 32. -/
def t32 (t : Fin cfg0.N) : Fin 32 := ⟨t.val, lt_of_lt_of_eq t.isLt N_0⟩

/-- Where each window's block sits at point t, and where the body's own 32 rows start: decided over the grid. -/
theorem idx_facts : ∀ t : Fin cfg0.N,
    (win0_0.index t 0 = t.val / 16 ∧ win0_0.index t 1 = 0 ∧ win0_0.index t 2 = t.val % 16 ∧ win0_0.index t 3 = 0)
    ∧ (win0_1.index t 0 = t.val / 16 ∧ win0_1.index t 1 = 0 ∧ win0_1.index t 2 = t.val % 16 ∧ win0_1.index t 3 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (k0_off1 (grid0.coords t) 0 = t.val / 16 ∧ k0_off1 (grid0.coords t) 1 = 32 * (t.val % 16)
        ∧ k0_off1 (grid0.coords t) 2 = 0) :=
  (by decide +kernel : ∀ t : Fin grid0.N, _)

/-- The student's block at (0, d, r, w) is the student's map at the pixel of block t, channel d. -/
theorem studentBlock_apply (c : Dev nD) (t : Fin cfg0.N) (d : Fin 96) (r : Fin 32) (w : Fin 512) :
    (iblk m c 0 t : Vec Ideal S1x96x32x512 .f32) (ix4 (0 : Fin 1) d r w)
      = m ((c : Thread nD τ).loc main_arg0)
          (ix4 (Cert.PixelLoss.blockPix (t32 t) r w 0) d (Cert.PixelLoss.blockPix (t32 t) r w 1)
            (Cert.PixelLoss.blockPix (t32 t) r w 2)) := by
  rw [← V_main_arg0 m c]
  unfold iblk
  rw [View.read_apply]
  show V m c main_arg0 _ = V m c main_arg0 _
  congr 1
  funext a
  apply Fin.ext
  obtain ⟨⟨h0, h1, h2, h3⟩, -⟩ := idx_facts t
  match a with
  | ⟨0, _⟩ => show win0_0.index t 0 * 1 + 1 * 0 = t.val / 16; rw [h0]; omega
  | ⟨1, _⟩ => show win0_0.index t 1 * 96 + 1 * d.val = d.val; rw [h1]; omega
  | ⟨2, _⟩ => show win0_0.index t 2 * 32 + 1 * r.val = 32 * (t.val % 16) + r.val; rw [h2]; omega
  | ⟨3, _⟩ => show win0_0.index t 3 * 512 + 1 * w.val = w.val; rw [h3]; omega

/-- The teacher's block likewise. -/
theorem teacherBlock_apply (c : Dev nD) (t : Fin cfg0.N) (d : Fin 96) (r : Fin 32) (w : Fin 512) :
    (iblk m c 1 t : Vec Ideal S1x96x32x512 .f32) (ix4 (0 : Fin 1) d r w)
      = m ((c : Thread nD τ).loc main_arg1)
          (ix4 (Cert.PixelLoss.blockPix (t32 t) r w 0) d (Cert.PixelLoss.blockPix (t32 t) r w 1)
            (Cert.PixelLoss.blockPix (t32 t) r w 2)) := by
  rw [← V_main_arg1 m c]
  unfold iblk
  rw [View.read_apply]
  show V m c main_arg1 _ = V m c main_arg1 _
  congr 1
  funext a
  apply Fin.ext
  obtain ⟨-, ⟨h0, h1, h2, h3⟩, -⟩ := idx_facts t
  match a with
  | ⟨0, _⟩ => show win0_1.index t 0 * 1 + 1 * 0 = t.val / 16; rw [h0]; omega
  | ⟨1, _⟩ => show win0_1.index t 1 * 96 + 1 * d.val = d.val; rw [h1]; omega
  | ⟨2, _⟩ => show win0_1.index t 2 * 32 + 1 * r.val = 32 * (t.val % 16) + r.val; rw [h2]; omega
  | ⟨3, _⟩ => show win0_1.index t 3 * 512 + 1 * w.val = w.val; rw [h3]; omega

/-- The centre's block at (d, 0, 0) is the centre at d. -/
theorem centreBlock_apply (c : Dev nD) (t : Fin cfg0.N) (d : Fin 96) :
    (iblk m c 3 t : Vec Ideal S96x1x1 .f32) (ix3 d (0 : Fin 1) (0 : Fin 1))
      = m ((c : Thread nD τ).loc main_arg4) (ix1 d) := by
  have e : (iblk m c 3 t : Vec Ideal S96x1x1 .f32) (ix3 d (0 : Fin 1) (0 : Fin 1))
      = V m c main_v6 (ix3 d (0 : Fin 1) (0 : Fin 1)) := by
    unfold iblk
    rw [View.read_apply]
    show V m c main_v6 _ = V m c main_v6 _
    congr 1
    funext a
    apply Fin.ext
    obtain ⟨-, -, -, ⟨h0, h1, h2⟩, -⟩ := idx_facts t
    match a with
    | ⟨0, _⟩ => show win0_3.index t 0 * 96 + 1 * d.val = d.val; rw [h0]; omega
    | ⟨1, _⟩ => show win0_3.index t 1 * 1 + 1 * 0 = 0; rw [h1]
    | ⟨2, _⟩ => show win0_3.index t 2 * 1 + 1 * 0 = 0; rw [h2]
  rw [e, entry_centre m c]
  exact shapeCast_apply _ shapeCasts_S96_S96x1x1 _ (ix1 d) (by
    rw [Shape.rowMajor_val_one, Shape.rowMajor_val_three]
    show d.val = (d.val * 1 + 0) * 1 + 0
    omega)

/-- The 32 rows the body takes from the array of counted pixels, at (0, r, w): the flag of the pixel of block t. -/
theorem validRows_apply (c : Dev nD) (t : Fin cfg0.N) (r : Fin 32) (w : Fin 512) :
    validRows (F := Ideal) (grid0.coords t) (iblk m c 2 t) (ix3 (0 : Fin 1) r w)
      = Cert.PixelLoss.validArr shapeCasts_S2x1x512x512_S2x512x512 bcast_S_S2x512x512
          (m ((c : Thread nD τ).loc main_arg2)) (m ((c : Thread nD τ).loc main_arg3))
          (Cert.PixelLoss.blockPix (t32 t) r w) := by
  rw [← entry_valid m c]
  unfold validRows iblk
  show (((cfg0.win 2).blk t).view.read (Elt Ideal) (V m c (Pipeline.arrRef spec0 2))) _ = _
  rw [View.read_apply]
  show V m c main_v5 _ = V m c main_v5 _
  congr 1
  funext a
  apply Fin.ext
  obtain ⟨-, -, ⟨h0, h1, h2⟩, -, ⟨o0, o1, o2⟩⟩ := idx_facts t
  match a with
  | ⟨0, _⟩ => show win0_2.index t 0 * 2 + 1 * (k0_off1 (grid0.coords t) 0 + 1 * 0) = t.val / 16; rw [h0, o0]; omega
  | ⟨1, _⟩ => show win0_2.index t 1 * 512 + 1 * (k0_off1 (grid0.coords t) 1 + 1 * r.val) = 32 * (t.val % 16) + r.val
              rw [h1, o1]; omega
  | ⟨2, _⟩ => show win0_2.index t 2 * 512 + 1 * (k0_off1 (grid0.coords t) 2 + 1 * w.val) = w.val; rw [h2, o2]; omega

end Cert.KernelIdeal.Acc

end
-- ==== Proof.KernelSum.lean ====
/-
  The two accumulators after every grid point, and at the end.

  Point 0 stores zero in both accumulators and adds its block's terms; every later point adds its block's terms onto
  what the point before left. So after point n the loss accumulator holds the sum, over the points 0 .. n, of each
  point's block total of loss times flag, and the count accumulator the sum of each point's block total of flags: an
  induction on n. The 32 blocks are the 32 consecutive groups of 32 rows of the two images, so after the last point
  the two accumulators hold the totals over all pixels.
-/
import proofs.«115911_g66623532696115_cont_9to1c4b_22_17_alg».proof.Proof.KernelBlocks

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The loss of every pixel, and the flag of every pixel, from the program's arguments. -/
abbrev lossOf (c : Dev nD) : Cert.PixelLoss.SPix.Idx → EReal :=
  Cert.PixelLoss.lossArr (m ((c : Thread nD τ).loc main_arg0)) (m ((c : Thread nD τ).loc main_arg1))
    (m ((c : Thread nD τ).loc main_arg4))
abbrev validOf (c : Dev nD) : Cert.PixelLoss.SPix.Idx → EReal :=
  Cert.PixelLoss.validArr shapeCasts_S2x1x512x512_S2x512x512 bcast_S_S2x512x512
    (m ((c : Thread nD τ).loc main_arg2)) (m ((c : Thread nD τ).loc main_arg3))

/-! ## One point, from its blocks -/

/-- What the first point leaves: its steps from the stored zeros. -/
theorem outs_first (c : Dev nD) (t : Fin cfg0.N) (h0 : t.val % 32 = 0) :
    outsAt0 m c t.val t.isLt
      = (lossStep (grid0.coords t) (iblk m c 0 t) (iblk m c 1 t) (iblk m c 2 t) (iblk m c 3 t) (k0_pay3 (F := Ideal)),
         countStep (grid0.coords t) (iblk m c 2 t) (k0_pay4 (F := Ideal))) :=
  (outsAt0_A m c t h0).trans (congrArg₂ Prod.mk
    (out_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t))
    (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t)))

/-- What a later point leaves: its steps from what the point before left. -/
theorem outs_later (c : Dev nD) (t : Fin cfg0.N) (h0 : ¬t.val % 32 = 0) :
    outsAt0 m c t.val t.isLt
      = (lossStep (grid0.coords t) (iblk m c 0 t) (iblk m c 1 t) (iblk m c 2 t) (iblk m c 3 t)
           (outsAt0 m c (t.val - 1) (Nat.lt_of_le_of_lt (Nat.sub_le _ _) t.isLt)).1,
         countStep (grid0.coords t) (iblk m c 2 t)
           (outsAt0 m c (t.val - 1) (Nat.lt_of_le_of_lt (Nat.sub_le _ _) t.isLt)).2) :=
  (outsAt0_B m c t h0).trans (congrArg₂ Prod.mk
    (out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)).1
      (outsAt0 m c (t.val - 1) (Nat.lt_of_le_of_lt (Nat.sub_le _ _) t.isLt)).2)
    (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)).1
      (outsAt0 m c (t.val - 1) (Nat.lt_of_le_of_lt (Nat.sub_le _ _) t.isLt)).2))

/-- The loss step of point t adds the loss times flag of the pixels of block t. -/
theorem lossStep_point (c : Dev nD) (t : Fin cfg0.N) (acc : Vec Ideal S1x1 .f32) (j : S1x1.Idx) :
    lossStep (F := Ideal) (grid0.coords t) (iblk m c 0 t) (iblk m c 1 t) (iblk m c 2 t) (iblk m c 3 t) acc j
      = acc j + ∑ r : Fin 32, ∑ w : Fin 512,
          lossOf m c (Cert.PixelLoss.blockPix (t32 t) r w) * validOf m c (Cert.PixelLoss.blockPix (t32 t) r w) := by
  refine (lossStep_apply (grid0.coords t) (iblk m c 0 t) (iblk m c 1 t) (iblk m c 2 t) (iblk m c 3 t) acc j).trans ?_
  refine congrArg (acc j + ·) (Finset.sum_congr rfl fun r _ => Finset.sum_congr rfl fun w _ => ?_)
  refine congrArg₂ (· * ·) ?_ (validRows_apply m c t r w)
  show _ = Cert.PixelLoss.cosLoss _ _
  exact congrArg₂ Cert.PixelLoss.cosLoss (funext fun d => studentBlock_apply m c t d r w)
    (funext fun d => congrArg₂ (· - ·) (teacherBlock_apply m c t d r w) (centreBlock_apply m c t d))

/-- The count step of point t adds the flags of the pixels of block t. -/
theorem countStep_point (c : Dev nD) (t : Fin cfg0.N) (acc : Vec Ideal S1x1 .f32) (j : S1x1.Idx) :
    countStep (F := Ideal) (grid0.coords t) (iblk m c 2 t) acc j
      = acc j + ∑ r : Fin 32, ∑ w : Fin 512, validOf m c (Cert.PixelLoss.blockPix (t32 t) r w) := by
  refine (countStep_apply (grid0.coords t) (iblk m c 2 t) acc j).trans ?_
  exact congrArg (acc j + ·) (Finset.sum_congr rfl fun r _ => Finset.sum_congr rfl fun w _ => validRows_apply m c t r w)

/-! ## After every point -/

/-- What point n adds to each accumulator (nothing past the grid). -/
def lossTerm (c : Dev nD) (n : ℕ) : EReal :=
  if h : n < cfg0.N then ∑ r : Fin 32, ∑ w : Fin 512,
    lossOf m c (Cert.PixelLoss.blockPix (t32 ⟨n, h⟩) r w) * validOf m c (Cert.PixelLoss.blockPix (t32 ⟨n, h⟩) r w)
  else 0
def countTerm (c : Dev nD) (n : ℕ) : EReal :=
  if h : n < cfg0.N then ∑ r : Fin 32, ∑ w : Fin 512, validOf m c (Cert.PixelLoss.blockPix (t32 ⟨n, h⟩) r w)
  else 0

/-- After point n each accumulator holds the sum of what the points 0 .. n added. -/
theorem outsAt_sum (c : Dev nD) : ∀ (n : ℕ) (h : n < cfg0.N) (j : S1x1.Idx),
    (outsAt0 m c n h).1 j = ∑ k ∈ Finset.range (n + 1), lossTerm m c k
    ∧ (outsAt0 m c n h).2 j = ∑ k ∈ Finset.range (n + 1), countTerm m c k
  | 0, h, j => by
    have e := outs_first m c ⟨0, h⟩ rfl
    have e1 : (outsAt0 m c 0 h).1 j = _ := congrFun (congrArg Prod.fst e) j
    have e2 : (outsAt0 m c 0 h).2 j = _ := congrFun (congrArg Prod.snd e) j
    refine ⟨e1.trans ?_, e2.trans ?_⟩
    · refine (lossStep_point m c ⟨0, h⟩ _ j).trans ?_
      rw [zeroLoss_apply, zero_add, Finset.sum_range_one]
      unfold lossTerm
      rw [dif_pos h]
    · refine (countStep_point m c ⟨0, h⟩ _ j).trans ?_
      rw [zeroCount_apply, zero_add, Finset.sum_range_one]
      unfold countTerm
      rw [dif_pos h]
  | n + 1, h, j => by
    have hN : cfg0.N = 32 := N_0
    have hB : ¬(⟨n + 1, h⟩ : Fin cfg0.N).val % 32 = 0 := by dsimp only; omega
    have e := outs_later m c ⟨n + 1, h⟩ hB
    have e1 : (outsAt0 m c (n + 1) h).1 j = _ := congrFun (congrArg Prod.fst e) j
    have e2 : (outsAt0 m c (n + 1) h).2 j = _ := congrFun (congrArg Prod.snd e) j
    obtain ⟨ih1, ih2⟩ := outsAt_sum c n (Nat.lt_of_succ_lt h) j
    refine ⟨e1.trans ?_, e2.trans ?_⟩
    · refine (lossStep_point m c ⟨n + 1, h⟩ _ j).trans ?_
      rw [Finset.sum_range_succ _ (n + 1)]
      refine congrArg₂ (· + ·) ih1 ?_
      unfold lossTerm
      rw [dif_pos h]
    · refine (countStep_point m c ⟨n + 1, h⟩ _ j).trans ?_
      rw [Finset.sum_range_succ _ (n + 1)]
      refine congrArg₂ (· + ·) ih2 ?_
      unfold countTerm
      rw [dif_pos h]

/-! ## At the end -/

/-- The 32 points' loss terms sum to the total over all pixels of loss times flag. -/
theorem lossTerm_total (c : Dev nD) :
    ∑ k ∈ Finset.range 32, lossTerm m c k = ∑ i, lossOf m c i * validOf m c i := by
  rw [Finset.sum_range, ← Cert.PixelLoss.sum_blocks (fun i => lossOf m c i * validOf m c i)]
  refine Finset.sum_congr rfl fun t _ => ?_
  unfold lossTerm
  rw [dif_pos (lt_of_lt_of_eq t.isLt N_0.symm)]
  rfl

/-- The 32 points' count terms sum to the number of counted pixels. -/
theorem countTerm_total (c : Dev nD) :
    ∑ k ∈ Finset.range 32, countTerm m c k = ∑ i, validOf m c i := by
  rw [Finset.sum_range, ← Cert.PixelLoss.sum_blocks (fun i => validOf m c i)]
  refine Finset.sum_congr rfl fun t _ => ?_
  unfold countTerm
  rw [dif_pos (lt_of_lt_of_eq t.isLt N_0.symm)]
  rfl

/-- After the last point the accumulators hold the two totals over all pixels. -/
theorem outsAt_last (c : Dev nD) (h : 31 < cfg0.N) (j : S1x1.Idx) :
    (outsAt0 m c 31 h).1 j = ∑ i, lossOf m c i * validOf m c i
    ∧ (outsAt0 m c 31 h).2 j = ∑ i, validOf m c i := by
  obtain ⟨h1, h2⟩ := outsAt_sum m c 31 h j
  exact ⟨h1.trans (lossTerm_total m c), h2.trans (countTerm_total m c)⟩

end Cert.KernelIdeal.Acc

end
-- ==== Proof.KernelRun.lean ====
/-
  The kernel program's run, read: its result is the masked mean loss.

  Each accumulator's array is a single cell and is written back once, after the last grid point, with what that
  point left: the total over all pixels. After the region the program reshapes the two cells to scalars and takes the
  mean from them: the total loss over the count floored at one, and zero when nothing counted.
-/
import proofs.«115911_g66623532696115_cont_9to1c4b_22_17_alg».proof.Proof.KernelSum
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable (m : (ℓ : Loc nD τ sig) → Buf (Elt Ideal) ℓ) (ρ : Dev nD → PrngReg)

/-- The last grid point. -/
def tLast : Fin cfg0.N := ⟨31, by rw [show cfg0.N = 32 from N_0]; decide⟩

/-- The two result cells: the total loss over the counted pixels, and their number. -/
abbrev lossCell (c : Dev nD) : Buf (Elt Ideal) ((c : Thread nD τ).loc main_v7_0) :=
  fun _ => (∑ i, lossOf m c i * validOf m c i : EReal)
abbrev countCell (c : Dev nD) : Buf (Elt Ideal) ((c : Thread nD τ).loc main_v7_1) :=
  fun _ => (∑ i, validOf m c i : EReal)

/-- The one write-back of the loss cell, at the last point, writes the total. -/
theorem flushed_loss (c : Dev nD) (t : Fin cfg0.N) (hf : (cfg0.win 4).flush t = true) :
    (dats m 0 c).flushed 4 t = ((cfg0.win 4).blk t).view.read (Elt Ideal) (lossCell m c) := by
  have hN : cfg0.N = 32 := N_0
  have h31 : t.val = 31 := by have := (flush0_4 t).mp hf; have := t.isLt; omega
  obtain rfl : t = tLast := Fin.ext h31
  show (cfg0.win 4).cut (grid0.coords tLast) ((dats m 0 c).after 4 tLast) = _
  rw [after0_4]
  have e : (outsAt0 m c tLast.val tLast.isLt).1 = lossCell m c :=
    funext fun j => (outsAt_last m c tLast.isLt j).1
  rw [e]
  have hz' : (fun a => win0_4.index tLast a * main_v7_0.ty.shape.size a) = fun _ => 0 :=
    funext fun a => by fin_cases a <;> decide +kernel
  exact (Memref.read_access_unit_zero (Elt Ideal) main_v7_0 hz' (fun a => by rw [congrFun hz' a]; simp) (lossCell m c)).symm

/-- The one write-back of the count cell, at the last point, writes the count. -/
theorem flushed_count (c : Dev nD) (t : Fin cfg0.N) (hf : (cfg0.win 5).flush t = true) :
    (dats m 0 c).flushed 5 t = ((cfg0.win 5).blk t).view.read (Elt Ideal) (countCell m c) := by
  have hN : cfg0.N = 32 := N_0
  have h31 : t.val = 31 := by have := (flush0_5 t).mp hf; have := t.isLt; omega
  obtain rfl : t = tLast := Fin.ext h31
  show (cfg0.win 5).cut (grid0.coords tLast) ((dats m 0 c).after 5 tLast) = _
  rw [after0_5]
  have e : (outsAt0 m c tLast.val tLast.isLt).2 = countCell m c :=
    funext fun j => (outsAt_last m c tLast.isLt j).2
  rw [e]
  have hz' : (fun a => win0_5.index tLast a * main_v7_1.ty.shape.size a) = fun _ => 0 :=
    funext fun a => by fin_cases a <;> decide +kernel
  exact (Memref.read_access_unit_zero (Elt Ideal) main_v7_1 hz' (fun a => by rw [congrFun hz' a]; simp) (countCell m c)).symm

/-- So the loss cell ends holding the total: the last point's block covers its one entry. -/
theorem final_loss (c : Dev nD) : (dats m 0 c).arrAt 4 cfg0.N = lossCell m c :=
  (dats m 0 c).arrAt_eq_of_cover 4 (lossCell m c) (flushed_loss m c) fun i =>
    ⟨tLast, (flush0_4 tLast).mpr rfl, by
      show i ∈ ((View.whole main_v7_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- And the count cell the count. -/
theorem final_count (c : Dev nD) : (dats m 0 c).arrAt 5 cfg0.N = countCell m c :=
  (dats m 0 c).arrAt_eq_of_cover 5 (countCell m c) (flushed_count m c) fun i =>
    ⟨tLast, (flush0_5 tLast).mpr rfl, by
      show i ∈ ((View.whole main_v7_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_5.index tLast 0 * win0_5.size 0 ≤ (i 0 : Nat) ∧ (i 0 : Nat) < win0_5.index tLast 0 * win0_5.size 0 + win0_5.xsize (grid0.coords tLast) 0
                  rw [show win0_5.index tLast 0 * win0_5.size 0 = 0 from by decide +kernel, show win0_5.xsize (grid0.coords tLast) 0 = 1 from by decide +kernel]; omega
      | ⟨1, _⟩ => show win0_5.index tLast 1 * win0_5.size 1 ≤ (i 1 : Nat) ∧ (i 1 : Nat) < win0_5.index tLast 1 * win0_5.size 1 + win0_5.xsize (grid0.coords tLast) 1
                  rw [show win0_5.index tLast 1 * win0_5.size 1 = 0 from by decide +kernel, show win0_5.xsize (grid0.coords tLast) 1 = 1 from by decide +kernel]; omega⟩

/-- What the operations after the region leave in the result, from the contents of the two cells: the mean taken from
    them. Stated for any two cell values, so that the totals themselves are never opened. -/
theorem tail_of_cells (c : Dev nD) (X Y : EReal)
    (h4 : (dats m 0 c).arrAt 4 cfg0.N = fun _ => X) (h5 : (dats m 0 c).arrAt 5 cfg0.N = fun _ => Y) :
    Pipeline.afterTail₀ cfgs (dats m) 0 (V0 m) [hostOps1, hostOps1_1] c main_v13
      = Cert.PixelLoss.tail (fun _ => X) (fun _ => Y) := by
  have hA4 : Pipeline.withArrays (cfgs 0).spec c (V0 m c) (fun w => (dats m 0 c).arrAt w (cfgs 0).N)
      (Proc.devRef .tc main_v7_0) = fun _ => X :=
    (Pipeline.withArrays_arr spec0 launch0.win.arr_inj c _ _ 4).trans h4
  have hA5 : Pipeline.withArrays (cfgs 0).spec c (V0 m c) (fun w => (dats m 0 c).arrAt w (cfgs 0).N)
      (Proc.devRef .tc main_v7_1) = fun _ => Y :=
    (Pipeline.withArrays_arr spec0 launch0.win.arr_inj c _ _ 5).trans h5
  unfold Pipeline.afterTail₀
  simp only [hostOps1, hostOps1_1, List.flatten_cons, List.flatten_nil, List.append_nil, List.cons_append, List.nil_append]
  after_results
  rw [hA4, hA5]
  rfl

/-- With the two cells at the totals, that is the masked mean loss. -/
theorem tail_eq (c : Dev nD) :
    Pipeline.afterTail₀ cfgs (dats m) 0 (V0 m) [hostOps1, hostOps1_1] c main_v13
      = Cert.PixelLoss.maskedMean (lossOf m c) (validOf m c) :=
  tail_of_cells m c _ _ (final_loss m c) (final_count m c)

/-- The run, read: the result at the masked mean loss, the five arguments unchanged. -/
theorem run : θ_run defs (onTc (τ := τ) (main (F := Ideal))) ⟨m, fun _ => 0, ρ⟩ fun r => ∀ c : Dev nD,
      r.2.mem ((c.tc : Thread nD τ).loc main_v13) = Cert.PixelLoss.maskedMean (lossOf m c) (validOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Acc

end
-- ==== Proof.RefRun.lean ====
/-
  The reference program's run, read as one pure term of its five argument arrays.

  The program is a straight line of 46 array operations: every one reads buffers written before it and writes a
  buffer of its own, so the contents of the result buffer at the end are the operations' functions composed. The
  composition is cut into named stages: which pixels count (as 0 or 1), the loss of every pixel, the two totals
  over all pixels, and the mean taken from the totals.
-/
import proofs.«115911_g66623532696115_cont_9to1c4b_22_17_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The scalar whose word is w, and the same at every pixel. -/
def scalarW (w : BitVec 32) : (⟨S_, .f32⟩ : BufTy).Contents (Elt F) :=
  constant (F := F) S_ .f32 w
def pixW (w : BitVec 32) : (⟨S2x512x512, .f32⟩ : BufTy).Contents (Elt F) :=
  broadcastInDim S2x512x512 ![] bcast_S_S2x512x512 (scalarW (F := F) w)

/-- Which pixels count, as 0 or 1: x (its unit axis dropped) differs from zero there and the mask bit is clear. -/
def validStage (x2 : (⟨S2x512x512, .i1⟩ : BufTy).Contents (Elt F)) (x3 : (⟨S2x1x512x512, .f32⟩ : BufTy).Contents (Elt F)) :
    (⟨S2x512x512, .f32⟩ : BufTy).Contents (Elt F) :=
  uitofp (F := F) .f32
    (andi (cmpf (F := F) .une (shapeCast S2x512x512 x3 shapeCasts_S2x1x512x512_S2x512x512) (pixW (F := F) 0x00000000#32))
      (noti x2))

/-- A feature map with its channel axis moved last. -/
def chanLast (x : (⟨S2x96x512x512, .f32⟩ : BufTy).Contents (Elt F)) : (⟨S2x512x512x96, .f32⟩ : BufTy).Contents (Elt F) :=
  transpose S2x512x512x96 [0, 2, 3, 1] x transposes_S2x96x512x512_S2x512x512x96_0_2_3_1

/-- The teacher's map, channel axis last, minus the centre at every pixel. -/
def centred (x1 : (⟨S2x96x512x512, .f32⟩ : BufTy).Contents (Elt F)) (x4 : (⟨S96, .f32⟩ : BufTy).Contents (Elt F)) : (⟨S2x512x512x96, .f32⟩ : BufTy).Contents (Elt F) :=
  subf (F := F) (chanLast (F := F) x1)
    (broadcastInDim S2x512x512x96 ![0, 1, 2, 3] bcast_S1x1x1x96_S2x512x512x96_0_1_2_3
      (broadcastInDim S1x1x1x96 ![3] bcast_S96_S1x1x1x96_3 x4))

/-- The sum over the channel axis of the product of two maps, from the zero word. -/
def chanDot (a b : (⟨S2x512x512x96, .f32⟩ : BufTy).Contents (Elt F)) : (⟨S2x512x512, .f32⟩ : BufTy).Contents (Elt F) :=
  Host.reduceAdd (F := F) (mulf (F := F) a b) (scalarW (F := F) 0x00000000#32) reducesTo_S2x512x512x96_S2x512x512_d3 h_S_

/-- A map's norm over the channel axis, floored. -/
def flooredNorm (a : (⟨S2x512x512x96, .f32⟩ : BufTy).Contents (Elt F)) : (⟨S2x512x512, .f32⟩ : BufTy).Contents (Elt F) :=
  maximumf (F := F) (Host.sqrt (F := F) (chanDot (F := F) a a)) (pixW (F := F) 0x322BCC77#32)

/-- The loss of every pixel: one minus the inner product over the product of the floored norms. -/
def lossStage (x0 x1 : (⟨S2x96x512x512, .f32⟩ : BufTy).Contents (Elt F)) (x4 : (⟨S96, .f32⟩ : BufTy).Contents (Elt F)) : (⟨S2x512x512, .f32⟩ : BufTy).Contents (Elt F) :=
  subf (F := F) (pixW (F := F) 0x3F800000#32)
    (Host.divf (F := F) (chanDot (F := F) (chanLast (F := F) x0) (centred (F := F) x1 x4))
      (mulf (F := F) (flooredNorm (F := F) (chanLast (F := F) x0)) (flooredNorm (F := F) (centred (F := F) x1 x4))))

/-- The sum of an array over every pixel, from the zero word. -/
def total (a : (⟨S2x512x512, .f32⟩ : BufTy).Contents (Elt F)) : (⟨S_, .f32⟩ : BufTy).Contents (Elt F) :=
  Host.reduceAdd (F := F) a (scalarW (F := F) 0x00000000#32) reducesTo_S2x512x512_S_d0_1_2 h_S_

/-- The mean from the two totals: the total loss over the count floored at one, and zero when nothing counted. -/
def meanOf (s c : (⟨S_, .f32⟩ : BufTy).Contents (Elt F)) : (⟨S_, .f32⟩ : BufTy).Contents (Elt F) :=
  select (cmpf (F := F) .ogt c (scalarW (F := F) 0x00000000#32))
    (Host.divf (F := F) s (maximumf (F := F) c (scalarW (F := F) 0x3F800000#32)))
    (scalarW (F := F) 0x00000000#32)

/-- The program's result as a function of its five arguments. -/
def result (x0 x1 : (⟨S2x96x512x512, .f32⟩ : BufTy).Contents (Elt F)) (x2 : (⟨S2x512x512, .i1⟩ : BufTy).Contents (Elt F))
    (x3 : (⟨S2x1x512x512, .f32⟩ : BufTy).Contents (Elt F)) (x4 : (⟨S96, .f32⟩ : BufTy).Contents (Elt F)) : (⟨S_, .f32⟩ : BufTy).Contents (Elt F) :=
  meanOf (F := F) (total (F := F) (mulf (F := F) (lossStage (F := F) x0 x1 x4) (validStage (F := F) x2 x3)))
    (total (F := F) (validStage (F := F) x2 x3))

/-! ## The program as a list of operations, and its run -/

/-- The program's 46 operations, in order; the last is the called function's one operation, at the call's buffers. -/
abbrev ops : List (HloOp τ sig (Elt F)) :=
  [
    reshape main_arg3 main_v0 rfl shapeCasts_S2x1x512x512_S2x512x512,
    nullary main_cst (constant S_ .f32 0x00000000#32),
    unary main_cst main_v1 (broadcastInDim S2x512x512 ![] bcast_S_S2x512x512 : (⟨S_, .f32⟩ : BufTy).Contents (Elt F) → (⟨S2x512x512, .f32⟩ : BufTy).Contents (Elt F)),
    binary main_v0 main_v1 main_v2 (cmpf .une : (⟨S2x512x512, .f32⟩ : BufTy).Contents (Elt F) → (⟨S2x512x512, .f32⟩ : BufTy).Contents (Elt F) → (⟨S2x512x512, .i1⟩ : BufTy).Contents (Elt F)),
    unary main_arg2 main_v3 (noti : (⟨S2x512x512, .i1⟩ : BufTy).Contents (Elt F) → (⟨S2x512x512, .i1⟩ : BufTy).Contents (Elt F)),
    binary main_v2 main_v3 main_v4 (andi : (⟨S2x512x512, .i1⟩ : BufTy).Contents (Elt F) → (⟨S2x512x512, .i1⟩ : BufTy).Contents (Elt F) → (⟨S2x512x512, .i1⟩ : BufTy).Contents (Elt F)),
    unary main_arg0 main_v5 ((transpose S2x512x512x96 [0, 2, 3, 1] · transposes_S2x96x512x512_S2x512x512x96_0_2_3_1) : (⟨S2x96x512x512, .f32⟩ : BufTy).Contents (Elt F) → (⟨S2x512x512x96, .f32⟩ : BufTy).Contents (Elt F)),
    unary main_arg1 main_v6 ((transpose S2x512x512x96 [0, 2, 3, 1] · transposes_S2x96x512x512_S2x512x512x96_0_2_3_1) : (⟨S2x96x512x512, .f32⟩ : BufTy).Contents (Elt F) → (⟨S2x512x512x96, .f32⟩ : BufTy).Contents (Elt F)),
    unary main_arg4 main_v7 (broadcastInDim S1x1x1x96 ![3] bcast_S96_S1x1x1x96_3 : (⟨S96, .f32⟩ : BufTy).Contents (Elt F) → (⟨S1x1x1x96, .f32⟩ : BufTy).Contents (Elt F)),
    unary main_v7 main_v8 (broadcastInDim S2x512x512x96 ![0, 1, 2, 3] bcast_S1x1x1x96_S2x512x512x96_0_1_2_3 : (⟨S1x1x1x96, .f32⟩ : BufTy).Contents (Elt F) → (⟨S2x512x512x96, .f32⟩ : BufTy).Contents (Elt F)),
    binary main_v6 main_v8 main_v9 (subf : (⟨S2x512x512x96, .f32⟩ : BufTy).Contents (Elt F) → (⟨S2x512x512x96, .f32⟩ : BufTy).Contents (Elt F) → (⟨S2x512x512x96, .f32⟩ : BufTy).Contents (Elt F)),
    binary main_v5 main_v9 main_v10 (mulf : (⟨S2x512x512x96, .f32⟩ : BufTy).Contents (Elt F) → (⟨S2x512x512x96, .f32⟩ : BufTy).Contents (Elt F) → (⟨S2x512x512x96, .f32⟩ : BufTy).Contents (Elt F)),
    nullary main_cst_0 (constant S_ .f32 0x00000000#32),
    binary main_v10 main_cst_0 main_v11 ((fun x v => Host.reduceAdd x v reducesTo_S2x512x512x96_S2x512x512_d3 h_S_) : (⟨S2x512x512x96, .f32⟩ : BufTy).Contents (Elt F) → (⟨S_, .f32⟩ : BufTy).Contents (Elt F) → (⟨S2x512x512, .f32⟩ : BufTy).Contents (Elt F)),
    binary main_v5 main_v5 main_v12 (mulf : (⟨S2x512x512x96, .f32⟩ : BufTy).Contents (Elt F) → (⟨S2x512x512x96, .f32⟩ : BufTy).Contents (Elt F) → (⟨S2x512x512x96, .f32⟩ : BufTy).Contents (Elt F)),
    nullary main_cst_1 (constant S_ .f32 0x00000000#32),
    binary main_v12 main_cst_1 main_v13 ((fun x v => Host.reduceAdd x v reducesTo_S2x512x512x96_S2x512x512_d3 h_S_) : (⟨S2x512x512x96, .f32⟩ : BufTy).Contents (Elt F) → (⟨S_, .f32⟩ : BufTy).Contents (Elt F) → (⟨S2x512x512, .f32⟩ : BufTy).Contents (Elt F)),
    unary main_v13 main_v14 (Host.sqrt : (⟨S2x512x512, .f32⟩ : BufTy).Contents (Elt F) → (⟨S2x512x512, .f32⟩ : BufTy).Contents (Elt F)),
    binary main_v9 main_v9 main_v15 (mulf : (⟨S2x512x512x96, .f32⟩ : BufTy).Contents (Elt F) → (⟨S2x512x512x96, .f32⟩ : BufTy).Contents (Elt F) → (⟨S2x512x512x96, .f32⟩ : BufTy).Contents (Elt F)),
    nullary main_cst_2 (constant S_ .f32 0x00000000#32),
    binary main_v15 main_cst_2 main_v16 ((fun x v => Host.reduceAdd x v reducesTo_S2x512x512x96_S2x512x512_d3 h_S_) : (⟨S2x512x512x96, .f32⟩ : BufTy).Contents (Elt F) → (⟨S_, .f32⟩ : BufTy).Contents (Elt F) → (⟨S2x512x512, .f32⟩ : BufTy).Contents (Elt F)),
    unary main_v16 main_v17 (Host.sqrt : (⟨S2x512x512, .f32⟩ : BufTy).Contents (Elt F) → (⟨S2x512x512, .f32⟩ : BufTy).Contents (Elt F)),
    nullary main_cst_3 (constant S_ .f32 0x322BCC77#32),
    unary main_cst_3 main_v18 (broadcastInDim S2x512x512 ![] bcast_S_S2x512x512 : (⟨S_, .f32⟩ : BufTy).Contents (Elt F) → (⟨S2x512x512, .f32⟩ : BufTy).Contents (Elt F)),
    binary main_v14 main_v18 main_v19 (maximumf : (⟨S2x512x512, .f32⟩ : BufTy).Contents (Elt F) → (⟨S2x512x512, .f32⟩ : BufTy).Contents (Elt F) → (⟨S2x512x512, .f32⟩ : BufTy).Contents (Elt F)),
    nullary main_cst_4 (constant S_ .f32 0x322BCC77#32),
    unary main_cst_4 main_v20 (broadcastInDim S2x512x512 ![] bcast_S_S2x512x512 : (⟨S_, .f32⟩ : BufTy).Contents (Elt F) → (⟨S2x512x512, .f32⟩ : BufTy).Contents (Elt F)),
    binary main_v17 main_v20 main_v21 (maximumf : (⟨S2x512x512, .f32⟩ : BufTy).Contents (Elt F) → (⟨S2x512x512, .f32⟩ : BufTy).Contents (Elt F) → (⟨S2x512x512, .f32⟩ : BufTy).Contents (Elt F)),
    binary main_v19 main_v21 main_v22 (mulf : (⟨S2x512x512, .f32⟩ : BufTy).Contents (Elt F) → (⟨S2x512x512, .f32⟩ : BufTy).Contents (Elt F) → (⟨S2x512x512, .f32⟩ : BufTy).Contents (Elt F)),
    binary main_v11 main_v22 main_v23 (Host.divf : (⟨S2x512x512, .f32⟩ : BufTy).Contents (Elt F) → (⟨S2x512x512, .f32⟩ : BufTy).Contents (Elt F) → (⟨S2x512x512, .f32⟩ : BufTy).Contents (Elt F)),
    nullary main_cst_5 (constant S_ .f32 0x3F800000#32),
    unary main_cst_5 main_v24 (broadcastInDim S2x512x512 ![] bcast_S_S2x512x512 : (⟨S_, .f32⟩ : BufTy).Contents (Elt F) → (⟨S2x512x512, .f32⟩ : BufTy).Contents (Elt F)),
    binary main_v24 main_v23 main_v25 (subf : (⟨S2x512x512, .f32⟩ : BufTy).Contents (Elt F) → (⟨S2x512x512, .f32⟩ : BufTy).Contents (Elt F) → (⟨S2x512x512, .f32⟩ : BufTy).Contents (Elt F)),
    unary main_v4 main_v26 (uitofp .f32 : (⟨S2x512x512, .i1⟩ : BufTy).Contents (Elt F) → (⟨S2x512x512, .f32⟩ : BufTy).Contents (Elt F)),
    nullary main_cst_6 (constant S_ .f32 0x00000000#32),
    binary main_v26 main_cst_6 main_v27 ((fun x v => Host.reduceAdd x v reducesTo_S2x512x512_S_d0_1_2 h_S_) : (⟨S2x512x512, .f32⟩ : BufTy).Contents (Elt F) → (⟨S_, .f32⟩ : BufTy).Contents (Elt F) → (⟨S_, .f32⟩ : BufTy).Contents (Elt F)),
    nullary main_cst_7 (constant S_ .f32 0x00000000#32),
    binary main_v27 main_cst_7 main_v28 (cmpf .ogt : (⟨S_, .f32⟩ : BufTy).Contents (Elt F) → (⟨S_, .f32⟩ : BufTy).Contents (Elt F) → (⟨S_, .i1⟩ : BufTy).Contents (Elt F)),
    binary main_v25 main_v26 main_v29 (mulf : (⟨S2x512x512, .f32⟩ : BufTy).Contents (Elt F) → (⟨S2x512x512, .f32⟩ : BufTy).Contents (Elt F) → (⟨S2x512x512, .f32⟩ : BufTy).Contents (Elt F)),
    nullary main_cst_8 (constant S_ .f32 0x00000000#32),
    binary main_v29 main_cst_8 main_v30 ((fun x v => Host.reduceAdd x v reducesTo_S2x512x512_S_d0_1_2 h_S_) : (⟨S2x512x512, .f32⟩ : BufTy).Contents (Elt F) → (⟨S_, .f32⟩ : BufTy).Contents (Elt F) → (⟨S_, .f32⟩ : BufTy).Contents (Elt F)),
    nullary main_cst_9 (constant S_ .f32 0x3F800000#32),
    binary main_v27 main_cst_9 main_v31 (maximumf : (⟨S_, .f32⟩ : BufTy).Contents (Elt F) → (⟨S_, .f32⟩ : BufTy).Contents (Elt F) → (⟨S_, .f32⟩ : BufTy).Contents (Elt F)),
    binary main_v30 main_v31 main_v32 (Host.divf : (⟨S_, .f32⟩ : BufTy).Contents (Elt F) → (⟨S_, .f32⟩ : BufTy).Contents (Elt F) → (⟨S_, .f32⟩ : BufTy).Contents (Elt F)),
    nullary main_cst_10 (constant S_ .f32 0x00000000#32),
    TRef.ternary (TRef.of (T := ⟨S_, .i1⟩) main_v28) (TRef.of (T := ⟨S_, .f32⟩) main_v32) (TRef.of (T := ⟨S_, .f32⟩) main_cst_10) (TRef.of (T := ⟨S_, .f32⟩) main_v33) select ]

set_option maxRecDepth 8192 in
/-- The program is that list run in order: the called function's body unfolds to its one operation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨
    reshape_bufs_sub .., nullary_bufs_sub .., unary_bufs_sub .., binary_bufs_sub .., unary_bufs_sub .., binary_bufs_sub ..,
    unary_bufs_sub .., unary_bufs_sub .., unary_bufs_sub .., unary_bufs_sub .., binary_bufs_sub .., binary_bufs_sub ..,
    nullary_bufs_sub .., binary_bufs_sub .., binary_bufs_sub .., nullary_bufs_sub .., binary_bufs_sub .., unary_bufs_sub ..,
    binary_bufs_sub .., nullary_bufs_sub .., binary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., nullary_bufs_sub .., binary_bufs_sub ..,
    nullary_bufs_sub .., binary_bufs_sub .., binary_bufs_sub .., nullary_bufs_sub .., binary_bufs_sub .., nullary_bufs_sub ..,
    binary_bufs_sub .., binary_bufs_sub .., nullary_bufs_sub .., ternary_bufs_sub ..⟩

set_option maxRecDepth 8192 in
set_option maxHeartbeats 2000000 in
/-- On every device, for any float values, from any memory with zero counters: every weakly fair execution of the
    program terminates with the result buffer at `result` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
          = result (F := F) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v33).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.HandRun

end
-- ==== Proof.RefRead.lean ====
/-
  The reference program's result, read index by index at the extended reals, is the masked mean of the per-pixel
  cosine loss.

  The mean taken from the two totals and the array of counted pixels are the specification's by unfolding. Each total
  is a sum into the rank-0 shape from the zero word: zero plus the sum over every pixel. At a pixel (b, h, w) each of
  the three sums over the channel axis is, from the zero word, the sum over the 96 channels d of the operand at
  (b, h, w, d); the feature map with its channel axis moved last reads the map at (b, d, h, w), and the centre
  broadcast along the three pixel axes reads the centre at d. What is left is the specification's loss of that pixel.
-/
import proofs.«115911_g66623532696115_cont_9to1c4b_22_17_alg».proof.Proof.RefRun
import proofs.«115911_g66623532696115_cont_9to1c4b_22_17_alg».proof.Proof.PixelLoss
import Idealize.ShloMosaic.Lib.Pipeline.Value
import Idealize.ShloMosaic.Lib.ValueIdx
import Idealize.ShloMosaic.PureOps.Ideal.Laws

noncomputable section

open scoped BigOperators

namespace Cert.ReferenceIdeal.HandRead

open Cert.ReferenceIdeal Cert.ReferenceIdeal.Gen Idealize.ShloMosaic Idealize.ShloMosaic.ValueIdx

/-! ## The tail, the counted pixels, and the totals -/

/-- The mean from the two totals is the specification's, operation for operation. -/
theorem meanOf_eq (s c : FVec Ideal S_ .f32) : HandRun.meanOf (F := Ideal) s c = Cert.PixelLoss.tail s c := rfl

/-- The array of counted pixels is the specification's, operation for operation. -/
theorem validStage_eq (x2 : IVec S2x512x512 1) (x3 : FVec Ideal S2x1x512x512 .f32) :
    HandRun.validStage (F := Ideal) x2 x3
      = Cert.PixelLoss.validArr shapeCasts_S2x1x512x512_S2x512x512 bcast_S_S2x512x512 x2 x3 := rfl

/-- The zero word, read at the scalar shape's index, is zero. -/
theorem zeroW_apply (j : S_.Idx) : HandRun.scalarW (F := Ideal) 0x00000000#32 j = 0 := Ideal.ofBits_zero_f32

/-- A total is the sum over every pixel: the result shape has no axis, so every pixel reduces to its one index. -/
theorem total_eq (a : FVec Ideal S2x512x512 .f32) : HandRun.total (F := Ideal) a = fun _ => ∑ i, a i := by
  funext j
  unfold HandRun.total
  simp only [Host.reduceAdd, Ideal.hostReduceAdd_def]
  rw [Ideal.hostReduceAdd_total _ (fun b => b.elim0), zeroW_apply, zero_add]

/-! ## One pixel's loss -/

/-- A scalar word broadcast to the pixels reads the word's value at every pixel. -/
theorem pixW_apply (w : BitVec 32) (i : S2x512x512.Idx) : HandRun.pixW (F := Ideal) w i = Ideal.ofBits .f32 w := rfl

/-- The map with its channel axis last, at (b, h, w, d), is the map at (b, d, h, w). -/
theorem chanLast_apply (x : FVec Ideal S2x96x512x512 .f32) (b : Fin 2) (h w : Fin 512) (d : Fin 96) :
    HandRun.chanLast (F := Ideal) x (ix4 b h w d) = x (ix4 b d h w) := by
  unfold HandRun.chanLast
  exact transpose_apply _ x _ (ix4 b h w d) (ix4 b d h w) fun a => by
    match a with
    | ⟨0, _⟩ => rfl
    | ⟨1, _⟩ => rfl
    | ⟨2, _⟩ => rfl
    | ⟨3, _⟩ => rfl

/-- The centre, given three unit axes and then broadcast along them, at (b, h, w, d) is the centre at d. -/
theorem centre_apply (x4 : FVec Ideal S96 .f32) (b : Fin 2) (h w : Fin 512) (d : Fin 96) :
    broadcastInDim S2x512x512x96 ![0, 1, 2, 3] bcast_S1x1x1x96_S2x512x512x96_0_1_2_3
        (broadcastInDim S1x1x1x96 ![3] bcast_S96_S1x1x1x96_3 x4) (ix4 b h w d) = x4 (ix1 d) := by
  rw [broadcastInDim_apply _ _ _ (ix4 b h w d) (ix4 (0 : Fin 1) (0 : Fin 1) (0 : Fin 1) d) fun a => by
    match a with
    | ⟨0, _⟩ => rfl
    | ⟨1, _⟩ => rfl
    | ⟨2, _⟩ => rfl
    | ⟨3, _⟩ => rfl]
  exact broadcastInDim_apply _ _ _ _ (ix1 d) fun a => by
    match a with
    | ⟨0, _⟩ => rfl

/-- The centred teacher map at (b, h, w, d) is the teacher at (b, d, h, w) minus the centre at d. -/
theorem centred_apply (x1 : FVec Ideal S2x96x512x512 .f32) (x4 : FVec Ideal S96 .f32) (b : Fin 2) (h w : Fin 512)
    (d : Fin 96) : HandRun.centred (F := Ideal) x1 x4 (ix4 b h w d) = x1 (ix4 b d h w) - x4 (ix1 d) := by
  unfold HandRun.centred
  rw [subf_apply, chanLast_apply, centre_apply]

/-- The sum over the channel axis of a product, at pixel (b, h, w): the sum over the 96 channels of the factors'
    product at (b, h, w, d). -/
theorem chanDot_apply (p q : FVec Ideal S2x512x512x96 .f32) (b : Fin 2) (h w : Fin 512) :
    HandRun.chanDot (F := Ideal) p q (ix3 b h w) = ∑ d : Fin 96, p (ix4 b h w d) * q (ix4 b h w d) := by
  have hR : S2x512x512x96.Reduces [3] S2x512x512 := by decide
  unfold HandRun.chanDot
  simp only [Host.reduceAdd, Ideal.hostReduceAdd_def]
  rw [Ideal.hostReduceAdd_single reducesTo_S2x512x512x96_S2x512x512_d3 hR, zeroW_apply, zero_add]
  refine Finset.sum_congr rfl fun d _ => ?_
  have hl : hR.lift (ix3 b h w) d = ix4 b h w d := funext fun a => Fin.ext (by
    match a with
    | ⟨0, _⟩ => rfl
    | ⟨1, _⟩ => rfl
    | ⟨2, _⟩ => rfl
    | ⟨3, _⟩ => rfl)
  rw [hl]
  rfl

/-- The loss stage at a pixel, with every elementwise operation read at the pixel: one minus the quotient of the
    inner product by the product of the two floored norms. -/
theorem lossStage_pointwise (x0 x1 : FVec Ideal S2x96x512x512 .f32) (x4 : FVec Ideal S96 .f32) (i : S2x512x512.Idx) :
    HandRun.lossStage (F := Ideal) x0 x1 x4 i
      = Cert.PixelLoss.oneW - Ideal.div
          (HandRun.chanDot (F := Ideal) (HandRun.chanLast (F := Ideal) x0) (HandRun.centred (F := Ideal) x1 x4) i)
          (max (Ideal.sqrt (HandRun.chanDot (F := Ideal) (HandRun.chanLast (F := Ideal) x0)
                  (HandRun.chanLast (F := Ideal) x0) i)) Cert.PixelLoss.floorW
            * max (Ideal.sqrt (HandRun.chanDot (F := Ideal) (HandRun.centred (F := Ideal) x1 x4)
                  (HandRun.centred (F := Ideal) x1 x4) i)) Cert.PixelLoss.floorW) := rfl

/-- The loss stage at pixel (b, h, w) is the specification's loss of that pixel. -/
theorem lossStage_apply (x0 x1 : FVec Ideal S2x96x512x512 .f32) (x4 : FVec Ideal S96 .f32) (b : Fin 2) (h w : Fin 512) :
    HandRun.lossStage (F := Ideal) x0 x1 x4 (ix3 b h w) = Cert.PixelLoss.lossAt x0 x1 x4 b h w := by
  rw [lossStage_pointwise, chanDot_apply, chanDot_apply, chanDot_apply]
  unfold Cert.PixelLoss.lossAt Cert.PixelLoss.cosLoss
  simp only [chanLast_apply, centred_apply]

/-- The loss stage is the specification's array of losses. -/
theorem lossStage_eq (x0 x1 : FVec Ideal S2x96x512x512 .f32) (x4 : FVec Ideal S96 .f32) :
    HandRun.lossStage (F := Ideal) x0 x1 x4 = Cert.PixelLoss.lossArr x0 x1 x4 :=
  funext fun i => (congrArg (HandRun.lossStage (F := Ideal) x0 x1 x4) (eq_ix3 i)).trans
    (lossStage_apply x0 x1 x4 (i 0) (i 1) (i 2))

/-! ## The result -/

/-- The program's result at the extended reals is the masked mean of the per-pixel loss over the counted pixels. -/
theorem result_eq (x0 x1 : (⟨S2x96x512x512, .f32⟩ : BufTy).Contents (Elt Ideal))
    (x2 : (⟨S2x512x512, .i1⟩ : BufTy).Contents (Elt Ideal)) (x3 : (⟨S2x1x512x512, .f32⟩ : BufTy).Contents (Elt Ideal))
    (x4 : (⟨S96, .f32⟩ : BufTy).Contents (Elt Ideal)) :
    HandRun.result (F := Ideal) x0 x1 x2 x3 x4
      = Cert.PixelLoss.maskedMean (Cert.PixelLoss.lossArr x0 x1 x4)
          (Cert.PixelLoss.validArr shapeCasts_S2x1x512x512_S2x512x512 bcast_S_S2x512x512 x2 x3) := by
  unfold HandRun.result
  rw [meanOf_eq, total_eq, total_eq, validStage_eq, lossStage_eq]
  rfl

end Cert.ReferenceIdeal.HandRead

end
-- ==== Proof.lean ====
/-
  The kernel and its reference compute the same masked mean of a per-pixel cosine loss.

  Both programs take a student and a teacher feature map [2, 96, 512, 512], a mask [2, 512, 512], an array x
  [2, 1, 512, 512] and a centre [96]. At each pixel the loss is one minus the cosine between the student's channel
  vector and the teacher's channel vector minus the centre, each norm floored at the same small positive number; a
  pixel counts when x is non-zero there and its mask bit is clear; the answer is the counted pixels' total loss over
  their number floored at one, and zero when no pixel counts.

  The reference forms the loss and the flag of every pixel and sums each over all pixels at once. The kernel walks
  the pixels in 32 blocks of 32 rows, and at each block adds the block's total of loss times flag, and of flag, onto
  two one-cell accumulators that start at zero; the operations after it take the same mean from the two cells. Over
  the extended reals addition is commutative and associative, so the sum of the 32 block totals is the total over
  all pixels, and the sum over the channel axis does not depend on where that axis sits. No entry needs to be finite
  for this: the two sides are the same sums of the same terms, grouped differently.

  The idealized kernel is the kernel's own text read at the extended reals (no operation was rewritten), so that
  conjunct holds trivially; the three frame conjuncts are the runs with the results dropped.
-/
import proofs.«115911_g66623532696115_cont_9to1c4b_22_17_alg».proof.Defs
import proofs.«115911_g66623532696115_cont_9to1c4b_22_17_alg».proof.Proof.Gen.Kernel
import proofs.«115911_g66623532696115_cont_9to1c4b_22_17_alg».proof.Proof.Gen.Kernel.Skeleton
import proofs.«115911_g66623532696115_cont_9to1c4b_22_17_alg».proof.Proof.Gen.Kernel.Launch
import proofs.«115911_g66623532696115_cont_9to1c4b_22_17_alg».proof.Proof.Gen.Kernel.Points
import proofs.«115911_g66623532696115_cont_9to1c4b_22_17_alg».proof.Proof.Gen.Kernel.Frame
import proofs.«115911_g66623532696115_cont_9to1c4b_22_17_alg».proof.Proof.Gen.KernelIdeal
import proofs.«115911_g66623532696115_cont_9to1c4b_22_17_alg».proof.Proof.Gen.KernelIdeal.Skeleton
import proofs.«115911_g66623532696115_cont_9to1c4b_22_17_alg».proof.Proof.Gen.KernelIdeal.Launch
import proofs.«115911_g66623532696115_cont_9to1c4b_22_17_alg».proof.Proof.Gen.KernelIdeal.Points
import proofs.«115911_g66623532696115_cont_9to1c4b_22_17_alg».proof.Proof.Gen.KernelIdeal.Frame
import proofs.«115911_g66623532696115_cont_9to1c4b_22_17_alg».proof.Proof.Gen.ReferenceIdeal
import proofs.«115911_g66623532696115_cont_9to1c4b_22_17_alg».proof.Proof.Gen.Pre_finite_inputs
import proofs.«115911_g66623532696115_cont_9to1c4b_22_17_alg».proof.Proof.KernelRun
import proofs.«115911_g66623532696115_cont_9to1c4b_22_17_alg».proof.Proof.RefRead
import Idealize.ShloMosaic.Adequacy
import Idealize.ShloMosaic.Init

noncomputable section

namespace Cert.Proof

open Idealize.ShloMosaic Idealize.SL.Sem

/-- The word-level kernel runs and leaves its arguments unchanged. -/
theorem frame_kernel [Cert.Pre_finite_inputs.Facts] : Cert.frame_Kernel (hKernel := Cert.Kernel.Gen.facts) :=
  fun m ρ _ => Cert.Kernel.Gen.frame m ρ

/-- So does the kernel read at the extended reals. -/
theorem frame_kernelIdeal [Cert.Pre_finite_inputs.Facts] : Cert.frame_KernelIdeal (hKernelIdeal := Cert.KernelIdeal.Gen.facts) :=
  fun m ρ _ => Cert.KernelIdeal.Gen.frame m ρ

/-- So does the reference: its run, with the result dropped. -/
theorem frame_referenceIdeal [Cert.Pre_finite_inputs.Facts] :
    Cert.frame_ReferenceIdeal (hReferenceIdeal := Cert.ReferenceIdeal.Gen.facts) := fun m ρ _ =>
  (θ_run Cert.ReferenceIdeal.defs _ _).mono (fun _ h c => (h c).2) (Cert.ReferenceIdeal.HandRun.run (F := Ideal) m ρ)

/-- From arguments that agree, both programs end at the masked mean loss of those arguments. -/
theorem algebraic [Cert.Pre_finite_inputs.Facts] :
    Cert.algebraic_KernelIdeal_ReferenceIdeal (hKernelIdeal := Cert.KernelIdeal.Gen.facts)
      (hReferenceIdeal := Cert.ReferenceIdeal.Gen.facts) := by
  intro m ρ m' ρ' _ hagree
  refine ⟨fun c => Cert.PixelLoss.maskedMean (Cert.KernelIdeal.Acc.lossOf m c) (Cert.KernelIdeal.Acc.validOf m c),
    Cert.KernelIdeal.Acc.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1, (hagree c).2.2.2.2]
  exact Cert.ReferenceIdeal.HandRead.result_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
